-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_arg5 : FVec F S2048x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048x2048 .f32) (main_arg5 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_v13 main_v16
-- ==== Kernel.lean ====
abbrev S4096x2048 : Shape := ⟨2, ![4096, 2048]⟩
abbrev S2048x2048 : Shape := ⟨2, ![2048, 2048]⟩
abbrev S512x512 : Shape := ⟨2, ![512, 512]⟩

abbrev nBuf : Space → Nat
  | .hbm => 9
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  natLt_1_32 : 1 < 32
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .f32 = 32 ∨ (Rect.block (s := S4096x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x2048.size a
  hwx0_2 : ∀ i : grid0.Coords, EltTy.bits .f32 = 32 ∨ (Rect.block (s := S4096x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .f32 = 32 ∨ (Rect.block (s := S2048x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x2048.size a
  hwx0_4 : ∀ i : grid0.Coords, EltTy.bits .f32 = 32 ∨ (Rect.block (s := S4096x2048) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x2048.size a
  hwx0_5 : ∀ i : grid0.Coords, EltTy.bits .f32 = 32 ∨ (Rect.block (s := S4096x2048) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x2048.size a
  hwx0_6 : ∀ i : grid0.Coords, EltTy.bits .f32 = 32 ∨ (Rect.block (s := S4096x2048) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x2048.size a
  hwx0_7 : ∀ i : grid0.Coords, EltTy.bits .f32 = 32 ∨ (Rect.block (s := S4096x2048) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x2048.size a
  hwx0_8 : ∀ i : grid0.Coords, EltTy.bits .f32 = 32 ∨ (Rect.block (s := S4096x2048) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x2048.size a
  hwx0_9 : ∀ i : grid0.Coords, EltTy.bits .f32 = 32 ∨ (Rect.block (s := S4096x2048) S512x512.size (cc0_transform_9 i) (hinb0_9 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .i1⟩
  | .hbm, ⟨27, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.K.Setup.lean ====
/-
  The pipelined kernel on its grid of 8 × 4 × 4 points (i, j, k), k innermost: what every point's proof shares.

  A point's position t has k = t mod 4. The body clears its two accumulators where k = 0, adds one 512-term slice of each
  matrix product at every point, and where k = 3 computes the three results of block (i, j) and stores them; at the
  other points the three result windows are left untouched and are not written back. The inputs indexed by (i, k) and
  (k, j) are fetched at every point, those indexed by (i, j) where k = 0 and kept for the three points that follow;
  either way each input's current staging buffer holds that point's block of its array.
-/
import proofs.«140393_j64424509440615_1_alg».proof.Proof.Gen.Kernel.Launch
import proofs.«140393_j64424509440615_1_alg».proof.Proof.Gen.Kernel.Skeleton
import proofs.«140393_j64424509440615_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffer contents when the region is entered: @main has no operation before it, so the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the inputs' block (i, k)): its current staging buffer holds its block at every point, fetched there or not,
    for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the forward weights' block (k, j)): its current staging buffer holds its block at every point, fetched there or not,
    for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the spikes' block (i, k), the recurrent product's left factor): its current staging buffer holds its block at every point, fetched there or not,
    for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (the recurrent weights' block (k, j)): its current staging buffer holds its block at every point, fetched there or not,
    for any proof data over these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 (the spikes' block (i, j), read pointwise): its current staging buffer holds its block at every point, fetched there or not,
    for any proof data over these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 (the synaptic current's block (i, j)): its current staging buffer holds its block at every point, fetched there or not,
    for any proof data over these arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 (the membrane potential's block (i, j)): its current staging buffer holds its block at every point, fetched there or not,
    for any proof data over these arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form -/

/-- "k = 0", as the body computes it from the grid coordinates. -/
abbrev cond0_0 (i : grid0.Coords) : Prop := (Scalar.cmpi .ne (Scalar.extui (Scalar.cmpi .eq (BitVec.ofNat 32 (i 2).val) 0#32)) 0#32) = 1#1
/-- It holds at the positions ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3", as the body computes it. -/
abbrev cond0_1 (i : grid0.Coords) : Prop := k0_cond2 i = 1#1
/-- It holds at the positions ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Result window 7: idle and not written back where k ≠ 3, stored whole where k = 3. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Result window 8: idle and not written back where k ≠ 3, stored whole where k = 3. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Result window 9: idle and not written back where k ≠ 3, stored whole where k = 3. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The staging and scratch memrefs -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .f32 := win0_9.stage (cfg0.slots t 9)
abbrev hs0_9 (t : Fin cfg0.N) : (ms0_9 t).IsWhole := hstage0_9 ((cfg0.slots t 9).cast nbuf0_9)
/-- The two accumulators: whole scoped buffers of the kernel's own, carried from point to point. -/
abbrev scM0_0 : Memref sig .tc .vmem S512x512 .f32 := Memref.whole cc0_scratch0
abbrev scM0_1 : Memref sig .tc .vmem S512x512 .f32 := Memref.whole cc0_scratch1
/-- Views through which the accumulators' and the results' contents are stated. -/
abbrev VS0_0 : View sig .tc .vmem S512x512 .f32 := scM0_0.view
abbrev VS0_1 : View sig .tc .vmem S512x512 .f32 := scM0_1.view
abbrev VO0_7 : View sig .tc .vmem S512x512 .f32 := (Memref.whole cc0_stg7_0 : Memref sig .tc .vmem S512x512 .f32).view
abbrev VO0_8 : View sig .tc .vmem S512x512 .f32 := (Memref.whole cc0_stg8_0 : Memref sig .tc .vmem S512x512 .f32).view
abbrev VO0_9 : View sig .tc .vmem S512x512 .f32 := (Memref.whole cc0_stg9_0 : Memref sig .tc .vmem S512x512 .f32).view

/-- What the region hands the body besides the windows: the two accumulators at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.K.RunA.lean ====
/-
  The body at a point of the first slice (k = 0): the accumulators are cleared, then each takes its first partial product: run symbolically, once, on any whole staging and scratch memrefs.
  What each buffer it stores into ends with is a list of stored pieces, last first, which the run itself determines.
-/
import proofs.«140393_j64424509440615_1_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- The pieces the body's stores leave (last first) at such a point, with the proof that from the buffers it reads at the stated
    contents, and the buffers it overwrites at any contents, the body runs to a continuation that is handed the read buffers
    unchanged and each written buffer with its pieces written. The buffers the body does not touch here do not appear. -/
noncomputable def kernelRun0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 x1 x2 x3 : Vec F S512x512 .f32) :
    Σ' (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Fr

end
-- ==== Proof.K.RunB.lean ====
/-
  The body at a point of the middle slices (k = 1, 2): each accumulator takes one more partial product: run symbolically, once, on any whole staging and scratch memrefs.
  What each buffer it stores into ends with is a list of stored pieces, last first, which the run itself determines.
-/
import proofs.«140393_j64424509440615_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- The pieces the body's stores leave (last first) at such a point, with the proof that from the buffers it reads at the stated
    contents, and the buffers it overwrites at any contents, the body runs to a continuation that is handed the read buffers
    unchanged and each written buffer with its pieces written. The buffers the body does not touch here do not appear. -/
noncomputable def kernelRun0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 x1 x2 x3 : Vec F S512x512 .f32) (xs0 xs1 : Vec F S512x512 .f32) :
    Σ' (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg13.eq_unread hfs0; obtain rfl := harg14.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Fr

end
-- ==== Proof.K.RunC.lean ====
/-
  The body at a point of the last slice (k = 3): each accumulator takes its last partial product, then the three results of the block are computed from the accumulators and the pointwise inputs, and stored: run symbolically, once, on any whole staging and scratch memrefs.
  What each buffer it stores into ends with is a list of stored pieces, last first, which the run itself determines.
-/
import proofs.«140393_j64424509440615_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- The pieces the body's stores leave (last first) at such a point, with the proof that from the buffers it reads at the stated
    contents, and the buffers it overwrites at any contents, the body runs to a continuation that is handed the read buffers
    unchanged and each written buffer with its pieces written. The buffers the body does not touch here do not appear. -/
noncomputable def kernelRun0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 x1 x2 x3 x4 x5 x6 : Vec F S512x512 .f32) (xs0 xs1 : Vec F S512x512 .f32) :
    Σ' (L7 : List (View.Piece (Elt F) S512x512 .f32)), Σ' (L8 : List (View.Piece (Elt F) S512x512 .f32)), Σ' (L9 : List (View.Piece (Elt F) S512x512 .f32)), Σ' (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg13.eq_unread hfs0; obtain rfl := harg14.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [HS0]; · iexists _; iexact HS0
    iexists _; iexact HS1

end Cert.Kernel.Fr

end
-- ==== Proof.K.Data.lean ====
/-
  What the two accumulators and the three result buffers hold after each point, the proof data of the pipeline, and the
  body's obligation at every point.

  After a point with k = 0 an accumulator holds what the first-slice run leaves; after a point with k = 1, 2 or 3, what
  that slice's run leaves when it starts from the contents the point before left. Where k = 3 the three result buffers
  hold what the last-slice run stores; elsewhere they are idle. The spikes' array is staged by two windows, each holding
  one half of its share; every other array is held whole.
-/
import proofs.«140393_j64424509440615_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a point of the grid -/

/-- The first-slice run at a point with k = 0: on the point's staging memrefs and blocks. -/
abbrev rA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
/-- The middle-slice run at a point with k = 1 or 2, from accumulators at `xs`. -/
abbrev rB (c : Dev nD) (t : Fin cfg0.N) (h0 : ¬t.val % 4 = 0) (h1 : ¬t.val % 4 = 3) (xs : Vec F S512x512 .f32 × Vec F S512x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) xs.1 xs.2
/-- The last-slice run at a point with k = 3, from accumulators at `xs`. -/
abbrev rC (c : Dev nD) (t : Fin cfg0.N) (h0 : ¬t.val % 4 = 0) (h1 : t.val % 4 = 3) (xs : Vec F S512x512 .f32 × Vec F S512x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) xs.1 xs.2

/-! ## The stored pieces cover the buffers -/

theorem scoverA_0 (c : Dev nD) (t : Fin cfg0.N) (h0 : t.val % 4 = 0) (h1 : ¬t.val % 4 = 3) (y : S512x512.Idx) :
    ∃ pc ∈ (rA m c t h0 h1).1, y ∈ pc.1.set := View.cover_of_tiledL (rA m c t h0 h1).1 S512x512.size (by sl_kernel_rfl) y
theorem scoverA_1 (c : Dev nD) (t : Fin cfg0.N) (h0 : t.val % 4 = 0) (h1 : ¬t.val % 4 = 3) (y : S512x512.Idx) :
    ∃ pc ∈ (rA m c t h0 h1).2.1, y ∈ pc.1.set := View.cover_of_tiledL (rA m c t h0 h1).2.1 S512x512.size (by sl_kernel_rfl) y
theorem scoverB_0 (c : Dev nD) (t : Fin cfg0.N) (h0 : ¬t.val % 4 = 0) (h1 : ¬t.val % 4 = 3) (xs : Vec F S512x512 .f32 × Vec F S512x512 .f32) (y : S512x512.Idx) :
    ∃ pc ∈ (rB m c t h0 h1 xs).1, y ∈ pc.1.set := View.cover_of_tiledL (rB m c t h0 h1 xs).1 S512x512.size (by sl_kernel_rfl) y
theorem scoverB_1 (c : Dev nD) (t : Fin cfg0.N) (h0 : ¬t.val % 4 = 0) (h1 : ¬t.val % 4 = 3) (xs : Vec F S512x512 .f32 × Vec F S512x512 .f32) (y : S512x512.Idx) :
    ∃ pc ∈ (rB m c t h0 h1 xs).2.1, y ∈ pc.1.set := View.cover_of_tiledL (rB m c t h0 h1 xs).2.1 S512x512.size (by sl_kernel_rfl) y
theorem coverC_7 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).1, y ∈ pc.1.set := View.cover_of_tiledL (rC m c t h0 h1 xs).1 S512x512.size (by sl_kernel_rfl) y
theorem coverC_8 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).2.1, y ∈ pc.1.set := View.cover_of_tiledL (rC m c t h0 h1 xs).2.1 S512x512.size (by sl_kernel_rfl) y
theorem coverC_9 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).2.2.1, y ∈ pc.1.set := View.cover_of_tiledL (rC m c t h0 h1 xs).2.2.1 S512x512.size (by sl_kernel_rfl) y
theorem coverC_s0 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).2.2.2.1, y ∈ pc.1.set := View.cover_of_tiledL (rC m c t h0 h1 xs).2.2.2.1 S512x512.size (by sl_kernel_rfl) y
theorem coverC_s1 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).2.2.2.2.1, y ∈ pc.1.set := View.cover_of_tiledL (rC m c t h0 h1 xs).2.2.2.2.1 S512x512.size (by sl_kernel_rfl) y

/-! ## What each case leaves: the pieces read back -/

/-- The accumulators after a first-slice point. -/
def sA (c : Dev nD) (t : Fin cfg0.N) (h0 : t.val % 4 = 0) (h1 : ¬t.val % 4 = 3) : Vec F S512x512 .f32 × Vec F S512x512 .f32 :=
  (VS0_0.read (Elt F) (VS0_0.writes (Elt F) VS0_0.junk (rA m c t h0 h1).1), VS0_1.read (Elt F) (VS0_1.writes (Elt F) VS0_1.junk (rA m c t h0 h1).2.1))
/-- The accumulators after a middle-slice point that found them at `xs`. -/
def sB (c : Dev nD) (t : Fin cfg0.N) (h0 : ¬t.val % 4 = 0) (h1 : ¬t.val % 4 = 3) (xs : Vec F S512x512 .f32 × Vec F S512x512 .f32) : Vec F S512x512 .f32 × Vec F S512x512 .f32 :=
  (VS0_0.read (Elt F) (VS0_0.writes (Elt F) VS0_0.junk (rB m c t h0 h1 xs).1), VS0_1.read (Elt F) (VS0_1.writes (Elt F) VS0_1.junk (rB m c t h0 h1 xs).2.1))
/-- The accumulators after a last-slice point that found them at `xs`. -/
def sC (c : Dev nD) (t : Fin cfg0.N) (h0 : ¬t.val % 4 = 0) (h1 : t.val % 4 = 3) (xs : Vec F S512x512 .f32 × Vec F S512x512 .f32) : Vec F S512x512 .f32 × Vec F S512x512 .f32 :=
  (VS0_0.read (Elt F) (VS0_0.writes (Elt F) VS0_0.junk (rC m c t h0 h1 xs).2.2.2.1), VS0_1.read (Elt F) (VS0_1.writes (Elt F) VS0_1.junk (rC m c t h0 h1 xs).2.2.2.2.1))
/-- The three result buffers (next spikes, next current, next potential) after a last-slice point. -/
def oC (c : Dev nD) (t : Fin cfg0.N) (h0 : ¬t.val % 4 = 0) (h1 : t.val % 4 = 3) (xs : Vec F S512x512 .f32 × Vec F S512x512 .f32) : Vec F S512x512 .f32 × Vec F S512x512 .f32 × Vec F S512x512 .f32 :=
  (VO0_7.read (Elt F) (VO0_7.writes (Elt F) VO0_7.junk (rC m c t h0 h1 xs).1), VO0_8.read (Elt F) (VO0_8.writes (Elt F) VO0_8.junk (rC m c t h0 h1 xs).2.1),
    VO0_9.read (Elt F) (VO0_9.writes (Elt F) VO0_9.junk (rC m c t h0 h1 xs).2.2.1))

/-! ## The accumulators point by point -/

/-- What the two accumulators hold after the body at position `n`: by recursion on the position, the case chosen by k = n mod 4. -/
def sAt (c : Dev nD) : (n : ℕ) → n < cfg0.N → Vec F S512x512 .f32 × Vec F S512x512 .f32
  | 0, hn => sA m c ⟨0, hn⟩ (Nat.zero_mod 4) (by show ¬(0 % 4 = 3); decide)
  | n + 1, hn =>
    if h0 : (n + 1) % 4 = 0 then sA m c ⟨n + 1, hn⟩ h0 (by show ¬((n + 1) % 4 = 3); omega)
    else if h1 : (n + 1) % 4 = 3 then sC m c ⟨n + 1, hn⟩ h0 h1 (sAt c n (Nat.lt_of_succ_lt hn))
    else sB m c ⟨n + 1, hn⟩ h0 h1 (sAt c n (Nat.lt_of_succ_lt hn))

theorem sAt_A (c : Dev nD) (t : Fin cfg0.N) (h0 : t.val % 4 = 0) (h1 : ¬t.val % 4 = 3) :
    sAt m c t.val t.isLt = sA m c t h0 h1 := by
  obtain ⟨n, hn⟩ := t
  cases n with
  | zero => exact rfl
  | succ n => exact (dif_pos h0).trans rfl

theorem sAt_B (c : Dev nD) (t : Fin cfg0.N) (h0 : ¬t.val % 4 = 0) (h1 : ¬t.val % 4 = 3) :
    sAt m c t.val t.isLt = sB m c t h0 h1 (sAt m c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

theorem sAt_C (c : Dev nD) (t : Fin cfg0.N) (h0 : ¬t.val % 4 = 0) (h1 : t.val % 4 = 3) :
    sAt m c t.val t.isLt = sC m c t h0 h1 (sAt m c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-- The three result buffers after the body at point `t`: the last-slice run's stores where k = 3; where k ≠ 3 the windows are
    idle and not written back, and this value is not consulted. -/
def oAt (c : Dev nD) (t : Fin cfg0.N) : Vec F S512x512 .f32 × Vec F S512x512 .f32 × Vec F S512x512 .f32 :=
  if h1 : t.val % 4 = 3 then oC m c t (fun h => by omega) h1 (sAt m c (t.val - 1) (Nat.lt_of_le_of_lt (Nat.sub_le _ _) t.isLt))
  else (VO0_7.read (Elt F) VO0_7.junk, VO0_8.read (Elt F) VO0_8.junk, VO0_9.read (Elt F) VO0_9.junk)

theorem oAt_C (c : Dev nD) (t : Fin cfg0.N) (h0 : ¬t.val % 4 = 0) (h1 : t.val % 4 = 3) :
    oAt m c t = oC m c t h0 h1 (sAt m c (t.val - 1) (Nat.lt_of_le_of_lt (Nat.sub_le _ _) t.isLt)) := dif_pos h1

/-! ## The invariant between points -/

/-- Before the first point the accumulators hold anything; after position `n` they hold `sAt n`. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare ((sAt m c n hn).1) ∗ owns (c : Thread nD τ) scM0_1 fullShare ((sAt m c n hn).2))

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d)) := by
  subst hz; rfl

theorem PhiS_succ (c : Dev nD) (n : ℕ) (hn : n < cfg0.N) :
    PhiS m c (n + 1) hn = iprop(owns (c : Thread nD τ) scM0_0 fullShare ((sAt m c n hn).1) ∗ owns (c : Thread nD τ) scM0_1 fullShare ((sAt m c n hn).2)) := rfl

theorem PhiS_pos (c : Dev nD) (n : ℕ) (h : n ≤ cfg0.N) (hz : n ≠ 0) :
    PhiS m c n h = iprop(owns (c : Thread nD τ) scM0_0 fullShare ((sAt m c (n - 1) (by omega)).1) ∗ owns (c : Thread nD τ) scM0_1 fullShare ((sAt m c (n - 1) (by omega)).2)) := by
  cases n with
  | zero => exact absurd rfl hz
  | succ n => rfl

/-! ## The pipeline's proof data -/

/-- On core `c`: the arrays as the region finds them; after the body each input's buffer at its block, the results' at `oAt`;
    the invariant `PhiS`; nothing owed; the spikes' array shared in halves between its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (oAt m c t).1
    | ⟨8, _⟩ => (oAt m c t).2.1
    | ⟨9, _⟩ => (oAt m c t).2.2
  Φ t := PhiS m c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (oAt m c t).1 := by dsimp only [dats]
theorem after0_8 (c : Dev nD) (t : Fin cfg0.N) : (dats m 0 c).after 8 t = (oAt m c t).2.1 := by dsimp only [dats]
theorem after0_9 (c : Dev nD) (t : Fin cfg0.N) : (dats m 0 c).after 9 t = (oAt m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

end Cert.Kernel.Fr

end
-- ==== Proof.K.Body.lean ====
/-
  The body's obligation at every point of the grid: from the invariant and the windows' current staging buffers, the body
  runs to the invariant at the next position and each buffer at what the proof data says it leaves. By cases on k = t mod 4.
-/
import proofs.«140393_j64424509440615_1_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, the (empty) debts, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- At any point: the inputs' buffers hold their blocks; k decides which run applies; the invariant hands the body the accumulators
    at what the point before left (at anything before the first point) and takes them back at this point's contents; where k ≠ 3 the
    result windows are idle and handed back as found, where k = 3 they end at what the run stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h1 : t.val % 4 = 3
  · have h0 : ¬t.val % 4 = 0 := by omega
    have hz : t.val ≠ 0 := by omega
    rw [show (dats m 0 c).leavesExact 7 t = owns (c : Thread nD τ) (ms0_7 t) fullShare ((dats m 0 c).after 7 t) from by
      unfold Dat.leavesExact; rw [liveAt0_7 t ((hcond0_1 t).mpr h1)], after0_7]
    rw [show (dats m 0 c).leavesExact 8 t = owns (c : Thread nD τ) (ms0_8 t) fullShare ((dats m 0 c).after 8 t) from by
      unfold Dat.leavesExact; rw [liveAt0_8 t ((hcond0_1 t).mpr h1)], after0_8]
    rw [show (dats m 0 c).leavesExact 9 t = owns (c : Thread nD τ) (ms0_9 t) fullShare ((dats m 0 c).after 9 t) from by
      unfold Dat.leavesExact; rw [liveAt0_9 t ((hcond0_1 t).mpr h1)], after0_9]
    rw [sAt_C m c t h0 h1, oAt_C m c t h0 h1]
    unfold sC oC; (try dsimp only)
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((rC m c t h0 h1 (sAt m c (t.val - 1) (Nat.lt_of_le_of_lt (Nat.sub_le _ _) t.isLt))).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%e7, H7⟩, ⟨%e8, H8⟩, ⟨%e9, H9⟩, ⟨%es0, HS0⟩, ⟨%es1, HS1⟩⟩
    isplitl [HS0 HS1]
    · isplitl [HS0]
      · unfold owns; iexists _; isplitr
        swap; · iexact HS0
        ipureintro; exact View.read_writes_of_cover _ _ _ _ _ (coverC_s0 m c t h0 h1 _)
      · unfold owns; iexists _; isplitr
        swap; · iexact HS1
        ipureintro; exact View.read_writes_of_cover _ _ _ _ _ (coverC_s1 m c t h0 h1 _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverC_7 m c t h0 h1 _)
    isplitl [H8]
    · unfold owns; iexists _; isplitr
      swap; · iexact H8
      ipureintro; exact View.read_writes_of_cover _ _ _ _ _ (coverC_8 m c t h0 h1 _)
    unfold owns; iexists _; isplitr
    swap; · iexact H9
    ipureintro; exact View.read_writes_of_cover _ _ _ _ _ (coverC_9 m c t h0 h1 _)
  · rw [Dat.leavesExact_idle (dats m 0 c) 7 t (idleAt0_7 t (fun h => h1 ((hcond0_1 t).mp h))) (noFlush0_7 t (fun h => h1 ((hcond0_1 t).mp h)))]
    rw [Dat.leavesExact_idle (dats m 0 c) 8 t (idleAt0_8 t (fun h => h1 ((hcond0_1 t).mp h))) (noFlush0_8 t (fun h => h1 ((hcond0_1 t).mp h)))]
    rw [Dat.leavesExact_idle (dats m 0 c) 9 t (idleAt0_9 t (fun h => h1 ((hcond0_1 t).mp h))) (noFlush0_9 t (fun h => h1 ((hcond0_1 t).mp h)))]
    by_cases h0 : t.val % 4 = 0
    · rw [sAt_A m c t h0 h1]
      unfold sA; (try dsimp only)
      by_cases hz : t.val = 0
      · rw [PhiS_castSucc m c t, PhiS_zero m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((rA m c t h0 h1).2.2 Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scoverA_0 m c t h0 h1)
          · unfold owns; iexists _; isplitr
            swap; · iexact HS1
            ipureintro; exact View.read_writes_of_cover _ _ _ _ _ (scoverA_1 m c t h0 h1)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((rA m c t h0 h1).2.2 Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scoverA_0 m c t h0 h1)
          · unfold owns; iexists _; isplitr
            swap; · iexact HS1
            ipureintro; exact View.read_writes_of_cover _ _ _ _ _ (scoverA_1 m c t h0 h1)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9
    · have hz : t.val ≠ 0 := fun e => h0 (by rw [e])
      rw [sAt_B m c t h0 h1]
      unfold sB; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((rB m c t h0 h1 (sAt m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1]
      · isplitl [HS0]
        · unfold owns; iexists _; isplitr
          swap; · iexact HS0
          ipureintro; exact View.read_writes_of_cover _ _ _ _ _ (scoverB_0 m c t h0 h1 _)
        · unfold owns; iexists _; isplitr
          swap; · iexact HS1
          ipureintro; exact View.read_writes_of_cover _ _ _ _ _ (scoverB_1 m c t h0 h1 _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- The kernel's two scoped buffers that are no staging buffer are the accumulators. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

/-- What the launch hands the region — the accumulators at anything — is the invariant before the first point. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest0_owns]
  iintro ⟨-, H⟩; iexact H

/-- After the last point the accumulators' contents are forgotten again. -/
theorem hout (c : Dev nD) : (dats m 0 c).Φ (Fin.last cfg0.N) ⊢ iprop(emp ∗ Pipeline.scopedRest spec0 c) := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, scopedRest0_owns]
  iintro ⟨HS0, HS1⟩
  isplitr; · iempintro
  isplitl [HS0]
  · iexists _; iexact HS0
  · iexists _; iexact HS1

end Cert.Kernel.Fr

end
-- ==== Proof.K.Split.lean ====
/-
  The launch of the pipelined kernel: how the buffers behind the windows' arrays are dealt to the ten windows.

  The ten windows stage nine distinct arrays: the spikes' array is staged twice, once by its (i, k) blocks (window 2,
  the recurrent product's left factor) and once by its (i, j) blocks (window 4, read pointwise). At the entry every
  buffer is held whole at the full share. Each of the eight arrays staged once goes whole to its window; the spikes'
  full share is the composite of its two halves, the left half going to window 2 and the right half to window 4. Both
  windows only read, so a half share each is enough, and both see the same entry contents.
-/
import proofs.«140393_j64424509440615_1_alg».proof.Proof.Gen.Kernel.Launch
import Idealize.ShloMosaic.Lib.Pipeline.Launch
import Idealize.ShloMosaic.Lib.Pipeline.Kit
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the ten windows' arrays, listed once each: the spikes' array serves two windows. -/
theorem arrImage0 :
    Finset.univ.image (Pipeline.arrRef spec0)
      = [main_arg0, main_arg4, main_arg3, main_arg5, main_arg1, main_arg2, main_v0_0, main_v0_1, main_v0_2].toFinset := by
  decide

/-- The nine buffers are pairwise distinct. -/
theorem arrList_nodup :
    [main_arg0, main_arg4, main_arg3, main_arg5, main_arg1, main_arg2, main_v0_0, main_v0_1, main_v0_2].Nodup := by
  decide

/-- One window's conjunct of the pipeline's arrays: its array is a whole buffer, so the conjunct is the buffer behind
    it held whole, at the window's share and at the entry contents. -/
theorem arr_conj_eq (c : Dev nD) (dat : Dat τ (Elt F) Unit ℕ (UR sig nD τ) ℕ cfg0 c)
    (Vb : (b : Ref sig .tc) → Buf (Elt F) ((c : Thread nD τ).loc b))
    (G : (w : Fin cfg0.W) → Buf (Elt F) ((cfg0.win w).arr.view.loc (c.tc : Thread nD τ)))
    (hG : ∀ w, G w = Vb (Pipeline.arrRef spec0 w)) (w : Fin 10) (s : PosShare TreeShare) (hs : dat.share w = s) :
    ((cfg0.win w).arr.view.loc (c.tc : Thread nD τ) ↦[(cfg0.win w).arr.view.set]{dat.share w} G w : sProp 𝕄)
      = ((c.tc : Thread nD τ).loc (Pipeline.arrRef spec0 w)) ↦{s} Vb (Pipeline.arrRef spec0 w) := by
  rw [(arr_whole0 w).set_eq_univ, hs, hG]

/-- The nine buffers behind the windows' arrays, each whole at the full share at the entry contents, make the
    pipeline's arrays at those contents: the windows on the spikes' array hold the left (window 2) and the right
    (window 4) half of its share, every other input window and the three result windows the full share. -/
theorem arrays_of_arrBufs (c : Dev nD) (dat : Dat τ (Elt F) Unit ℕ (UR sig nD τ) ℕ cfg0 c)
    (hq2 : dat.q 2 = fullShare.left) (hq4 : dat.q 4 = fullShare.right)
    (hq : ∀ w : Fin 10, w ≠ 2 → w ≠ 4 → dat.q w = fullShare)
    (Vb : (b : Ref sig .tc) → Buf (Elt F) ((c : Thread nD τ).loc b))
    (G : (w : Fin cfg0.W) → Buf (Elt F) ((cfg0.win w).arr.view.loc (c.tc : Thread nD τ)))
    (hG : ∀ w, G w = Vb (Pipeline.arrRef spec0 w)) :
    (Pipeline.arrBufs spec0 c Vb : sProp 𝕄) ⊢ dat.arrays G := by
  have hs0 : dat.share 0 = fullShare := hq 0 (by decide) (by decide)
  have hs1 : dat.share 1 = fullShare := hq 1 (by decide) (by decide)
  have hs2 : dat.share 2 = fullShare.left := hq2
  have hs3 : dat.share 3 = fullShare := hq 3 (by decide) (by decide)
  have hs4 : dat.share 4 = fullShare.right := hq4
  have hs5 : dat.share 5 = fullShare := hq 5 (by decide) (by decide)
  have hs6 : dat.share 6 = fullShare := hq 6 (by decide) (by decide)
  have hs7 : dat.share 7 = fullShare := rfl
  have hs8 : dat.share 8 = fullShare := rfl
  have hs9 : dat.share 9 = fullShare := rfl
  have hR : (dat.arrays G : sProp 𝕄) = iprop(
      (((c.tc : Thread nD τ).loc (Pipeline.arrRef spec0 0)) ↦{fullShare} Vb (Pipeline.arrRef spec0 0))
      ∗ (((c.tc : Thread nD τ).loc (Pipeline.arrRef spec0 1)) ↦{fullShare} Vb (Pipeline.arrRef spec0 1))
      ∗ (((c.tc : Thread nD τ).loc (Pipeline.arrRef spec0 2)) ↦{fullShare.left} Vb (Pipeline.arrRef spec0 2))
      ∗ (((c.tc : Thread nD τ).loc (Pipeline.arrRef spec0 3)) ↦{fullShare} Vb (Pipeline.arrRef spec0 3))
      ∗ (((c.tc : Thread nD τ).loc (Pipeline.arrRef spec0 4)) ↦{fullShare.right} Vb (Pipeline.arrRef spec0 4))
      ∗ (((c.tc : Thread nD τ).loc (Pipeline.arrRef spec0 5)) ↦{fullShare} Vb (Pipeline.arrRef spec0 5))
      ∗ (((c.tc : Thread nD τ).loc (Pipeline.arrRef spec0 6)) ↦{fullShare} Vb (Pipeline.arrRef spec0 6))
      ∗ (((c.tc : Thread nD τ).loc (Pipeline.arrRef spec0 7)) ↦{fullShare} Vb (Pipeline.arrRef spec0 7))
      ∗ (((c.tc : Thread nD τ).loc (Pipeline.arrRef spec0 8)) ↦{fullShare} Vb (Pipeline.arrRef spec0 8))
      ∗ (((c.tc : Thread nD τ).loc (Pipeline.arrRef spec0 9)) ↦{fullShare} Vb (Pipeline.arrRef spec0 9))) := by
    unfold Dat.arrays
    rw [bigSep_W0, arr_conj_eq c dat Vb G hG 0 _ hs0, arr_conj_eq c dat Vb G hG 1 _ hs1, arr_conj_eq c dat Vb G hG 2 _ hs2,
      arr_conj_eq c dat Vb G hG 3 _ hs3, arr_conj_eq c dat Vb G hG 4 _ hs4, arr_conj_eq c dat Vb G hG 5 _ hs5,
      arr_conj_eq c dat Vb G hG 6 _ hs6, arr_conj_eq c dat Vb G hG 7 _ hs7, arr_conj_eq c dat Vb G hG 8 _ hs8,
      arr_conj_eq c dat Vb G hG 9 _ hs9]
  have hL : (Pipeline.arrBufs spec0 c Vb : sProp 𝕄) = iprop(
      (((c.tc : Thread nD τ).loc main_arg0) ↦{fullShare} Vb main_arg0)
      ∗ (((c.tc : Thread nD τ).loc main_arg4) ↦{fullShare} Vb main_arg4)
      ∗ (((c.tc : Thread nD τ).loc main_arg3) ↦{fullShare} Vb main_arg3)
      ∗ (((c.tc : Thread nD τ).loc main_arg5) ↦{fullShare} Vb main_arg5)
      ∗ (((c.tc : Thread nD τ).loc main_arg1) ↦{fullShare} Vb main_arg1)
      ∗ (((c.tc : Thread nD τ).loc main_arg2) ↦{fullShare} Vb main_arg2)
      ∗ (((c.tc : Thread nD τ).loc main_v0_0) ↦{fullShare} Vb main_v0_0)
      ∗ (((c.tc : Thread nD τ).loc main_v0_1) ↦{fullShare} Vb main_v0_1)
      ∗ (((c.tc : Thread nD τ).loc main_v0_2) ↦{fullShare} Vb main_v0_2)) := by
    unfold Pipeline.arrBufs
    exact bigSep_eq_bigSepL_of_eq _ arrImage0 arrList_nodup _
  rw [hL, hR]
  iintro ⟨H0, H1, H2, H3, H5, H6, H7, H8, H9⟩
  ihave H := (pointsTo_share (PosShare.mem_left_op_right fullShare)).1 $$ H2
  icases H with ⟨H2, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Fr

end
-- ==== Proof.K.Launch.lean ====
/-
  The launch: every weakly fair execution of @main terminates, nothing faults, and each array of the pipeline ends at what the
  proof data computes for it — an input at its contents at entry, a result at its entry contents overwritten block by
  block by what the last-slice points wrote back. The spikes' array is handed to the pipeline once and dealt to its two
  windows in halves.
-/
import proofs.«140393_j64424509440615_1_alg».proof.Proof.K.Body
import proofs.«140393_j64424509440615_1_alg».proof.Proof.K.Split
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window but the two on the spikes' array holds its array whole. -/
theorem q_full (c : Dev nD) : ∀ w : Fin 10, w ≠ 2 → w ≠ 4 → (dats m 0 c).q w = fullShare := fun w h2 h4 => by
  fin_cases w <;> first | rfl | exact absurd rfl h2 | exact absurd rfl h4

-- the launch theorem's implicit arguments are found by unifying its conclusion with this one, which takes unfolding plain
-- definitions in a metavariable's type
set_option backward.isDefEq.respectTransparency.types false in
/-- At the compiled mesh, for any float values, from any memory with zero counters: every weakly fair execution of @main on the
    TensorCores terminates, and in every final state every array of the pipeline holds what the proof data computes. -/
theorem run_main : θ_run defs (onTc (τ := τ) (main (F := F))) ⟨m, fun _ => 0, ρ⟩
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := fun c => arrays_of_arrBufs c (dats m 0 c) rfl rfl (q_full m c) (fun b => m ((c : Thread nD τ).loc b)) _ (fun w => A_eq m c w))
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- An argument array staged by input window `w` ends at its launch contents. -/
theorem kept_of_run {r : PUnit × MemSt nD τ sig (Elt F)}
    (h : ∀ (c : Dev nD) (w : Fin cfg0.W), r.2.mem ((cfg0.spec w).arr.view.loc (c.tc : Thread nD τ)) = (dats m 0 c).arrAt w cfg0.N)
    (c : Dev nD) (w : Fin cfg0.W) (hw : (cfg0.win w).isOut = false) :
    r.2.mem ((cfg0.spec w).arr.view.loc (c.tc : Thread nD τ)) = V m c (Pipeline.arrRef spec0 w) :=
  (h c w).trans (((dats m 0 c).arrAt_in w hw _).trans (A_eq m c w))

/-- The frame: the program runs to the end, faults nowhere, and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun r h c => ⟨kept_of_run m h c 0 rfl, kept_of_run m h c 5 rfl, kept_of_run m h c 6 rfl, kept_of_run m h c 2 rfl, kept_of_run m h c 1 rfl, kept_of_run m h c 3 rfl⟩) (run_main m ρ)

end Cert.Kernel.Fr

end
-- ==== Proof.KI.Setup.lean ====
/-
  The pipelined kernel on its grid of 8 × 4 × 4 points (i, j, k), k innermost: what every point's proof shares.

  A point's position t has k = t mod 4. The body clears its two accumulators where k = 0, adds one 512-term slice of each
  matrix product at every point, and where k = 3 computes the three results of block (i, j) and stores them; at the
  other points the three result windows are left untouched and are not written back. The inputs indexed by (i, k) and
  (k, j) are fetched at every point, those indexed by (i, j) where k = 0 and kept for the three points that follow;
  either way each input's current staging buffer holds that point's block of its array.
-/
import proofs.«140393_j64424509440615_1_alg».proof.Proof.Gen.KernelIdeal.Launch
import proofs.«140393_j64424509440615_1_alg».proof.Proof.Gen.KernelIdeal.Skeleton
import proofs.«140393_j64424509440615_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffer contents when the region is entered: @main has no operation before it, so the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the inputs' block (i, k)): its current staging buffer holds its block at every point, fetched there or not,
    for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the forward weights' block (k, j)): its current staging buffer holds its block at every point, fetched there or not,
    for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the spikes' block (i, k), the recurrent product's left factor): its current staging buffer holds its block at every point, fetched there or not,
    for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (the recurrent weights' block (k, j)): its current staging buffer holds its block at every point, fetched there or not,
    for any proof data over these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 (the spikes' block (i, j), read pointwise): its current staging buffer holds its block at every point, fetched there or not,
    for any proof data over these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 (the synaptic current's block (i, j)): its current staging buffer holds its block at every point, fetched there or not,
    for any proof data over these arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 (the membrane potential's block (i, j)): its current staging buffer holds its block at every point, fetched there or not,
    for any proof data over these arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form -/

/-- "k = 0", as the body computes it from the grid coordinates. -/
abbrev cond0_0 (i : grid0.Coords) : Prop := (Scalar.cmpi .ne (Scalar.extui (Scalar.cmpi .eq (BitVec.ofNat 32 (i 2).val) 0#32)) 0#32) = 1#1
/-- It holds at the positions ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3", as the body computes it. -/
abbrev cond0_1 (i : grid0.Coords) : Prop := k0_cond2 i = 1#1
/-- It holds at the positions ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Result window 7: idle and not written back where k ≠ 3, stored whole where k = 3. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Result window 8: idle and not written back where k ≠ 3, stored whole where k = 3. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Result window 9: idle and not written back where k ≠ 3, stored whole where k = 3. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The staging and scratch memrefs -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .f32 := win0_9.stage (cfg0.slots t 9)
abbrev hs0_9 (t : Fin cfg0.N) : (ms0_9 t).IsWhole := hstage0_9 ((cfg0.slots t 9).cast nbuf0_9)
/-- The two accumulators: whole scoped buffers of the kernel's own, carried from point to point. -/
abbrev scM0_0 : Memref sig .tc .vmem S512x512 .f32 := Memref.whole cc0_scratch0
abbrev scM0_1 : Memref sig .tc .vmem S512x512 .f32 := Memref.whole cc0_scratch1
/-- Views through which the accumulators' and the results' contents are stated. -/
abbrev VS0_0 : View sig .tc .vmem S512x512 .f32 := scM0_0.view
abbrev VS0_1 : View sig .tc .vmem S512x512 .f32 := scM0_1.view
abbrev VO0_7 : View sig .tc .vmem S512x512 .f32 := (Memref.whole cc0_stg7_0 : Memref sig .tc .vmem S512x512 .f32).view
abbrev VO0_8 : View sig .tc .vmem S512x512 .f32 := (Memref.whole cc0_stg8_0 : Memref sig .tc .vmem S512x512 .f32).view
abbrev VO0_9 : View sig .tc .vmem S512x512 .f32 := (Memref.whole cc0_stg9_0 : Memref sig .tc .vmem S512x512 .f32).view

/-- What the region hands the body besides the windows: the two accumulators at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KI.RunA.lean ====
/-
  The body at a point of the first slice (k = 0): the accumulators are cleared, then each takes its first partial product: run symbolically, once, on any whole staging and scratch memrefs.
  What each buffer it stores into ends with is a list of stored pieces, last first, which the run itself determines.
-/
import proofs.«140393_j64424509440615_1_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- The pieces the body's stores leave (last first) at such a point, with the proof that from the buffers it reads at the stated
    contents, and the buffers it overwrites at any contents, the body runs to a continuation that is handed the read buffers
    unchanged and each written buffer with its pieces written. The buffers the body does not touch here do not appear. -/
noncomputable def kernelRun0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : cond0_0 i) (hc1 : ¬cond0_1 i)
    (x0 x1 x2 x3 : Vec F S512x512 .f32) :
    Σ' (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Fr

end
-- ==== Proof.KI.RunB.lean ====
/-
  The body at a point of the middle slices (k = 1, 2): each accumulator takes one more partial product: run symbolically, once, on any whole staging and scratch memrefs.
  What each buffer it stores into ends with is a list of stored pieces, last first, which the run itself determines.
-/
import proofs.«140393_j64424509440615_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- The pieces the body's stores leave (last first) at such a point, with the proof that from the buffers it reads at the stated
    contents, and the buffers it overwrites at any contents, the body runs to a continuation that is handed the read buffers
    unchanged and each written buffer with its pieces written. The buffers the body does not touch here do not appear. -/
noncomputable def kernelRun0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : ¬cond0_1 i)
    (x0 x1 x2 x3 : Vec F S512x512 .f32) (xs0 xs1 : Vec F S512x512 .f32) :
    Σ' (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg13.eq_unread hfs0; obtain rfl := harg14.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Fr

end
-- ==== Proof.KI.RunC.lean ====
/-
  The body at a point of the last slice (k = 3): each accumulator takes its last partial product, then the three results of the block are computed from the accumulators and the pointwise inputs, and stored: run symbolically, once, on any whole staging and scratch memrefs.
  What each buffer it stores into ends with is a list of stored pieces, last first, which the run itself determines.
-/
import proofs.«140393_j64424509440615_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- The pieces the body's stores leave (last first) at such a point, with the proof that from the buffers it reads at the stated
    contents, and the buffers it overwrites at any contents, the body runs to a continuation that is handed the read buffers
    unchanged and each written buffer with its pieces written. The buffers the body does not touch here do not appear. -/
noncomputable def kernelRun0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (hc0 : ¬cond0_0 i) (hc1 : cond0_1 i)
    (x0 x1 x2 x3 x4 x5 x6 : Vec F S512x512 .f32) (xs0 xs1 : Vec F S512x512 .f32) :
    Σ' (L7 : List (View.Piece (Elt F) S512x512 .f32)), Σ' (L8 : List (View.Piece (Elt F) S512x512 .f32)), Σ' (L9 : List (View.Piece (Elt F) S512x512 .f32)), Σ' (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__lif_kernel_eq_skeleton]; unfold cc0__lif_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg13.eq_unread hfs0; obtain rfl := harg14.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [HS0]; · iexists _; iexact HS0
    iexists _; iexact HS1

end Cert.KernelIdeal.Fr

end
-- ==== Proof.KI.Data.lean ====
/-
  What the two accumulators and the three result buffers hold after each point, the proof data of the pipeline, and the
  body's obligation at every point.

  After a point with k = 0 an accumulator holds what the first-slice run leaves; after a point with k = 1, 2 or 3, what
  that slice's run leaves when it starts from the contents the point before left. Where k = 3 the three result buffers
  hold what the last-slice run stores; elsewhere they are idle. The spikes' array is staged by two windows, each holding
  one half of its share; every other array is held whole.
-/
import proofs.«140393_j64424509440615_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a point of the grid -/

/-- The first-slice run at a point with k = 0: on the point's staging memrefs and blocks. -/
abbrev rA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
/-- The middle-slice run at a point with k = 1 or 2, from accumulators at `xs`. -/
abbrev rB (c : Dev nD) (t : Fin cfg0.N) (h0 : ¬t.val % 4 = 0) (h1 : ¬t.val % 4 = 3) (xs : Vec F S512x512 .f32 × Vec F S512x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) xs.1 xs.2
/-- The last-slice run at a point with k = 3, from accumulators at `xs`. -/
abbrev rC (c : Dev nD) (t : Fin cfg0.N) (h0 : ¬t.val % 4 = 0) (h1 : t.val % 4 = 3) (xs : Vec F S512x512 .f32 × Vec F S512x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) xs.1 xs.2

/-! ## The stored pieces cover the buffers -/

theorem scoverA_0 (c : Dev nD) (t : Fin cfg0.N) (h0 : t.val % 4 = 0) (h1 : ¬t.val % 4 = 3) (y : S512x512.Idx) :
    ∃ pc ∈ (rA m c t h0 h1).1, y ∈ pc.1.set := View.cover_of_tiledL (rA m c t h0 h1).1 S512x512.size (by sl_kernel_rfl) y
theorem scoverA_1 (c : Dev nD) (t : Fin cfg0.N) (h0 : t.val % 4 = 0) (h1 : ¬t.val % 4 = 3) (y : S512x512.Idx) :
    ∃ pc ∈ (rA m c t h0 h1).2.1, y ∈ pc.1.set := View.cover_of_tiledL (rA m c t h0 h1).2.1 S512x512.size (by sl_kernel_rfl) y
theorem scoverB_0 (c : Dev nD) (t : Fin cfg0.N) (h0 : ¬t.val % 4 = 0) (h1 : ¬t.val % 4 = 3) (xs : Vec F S512x512 .f32 × Vec F S512x512 .f32) (y : S512x512.Idx) :
    ∃ pc ∈ (rB m c t h0 h1 xs).1, y ∈ pc.1.set := View.cover_of_tiledL (rB m c t h0 h1 xs).1 S512x512.size (by sl_kernel_rfl) y
theorem scoverB_1 (c : Dev nD) (t : Fin cfg0.N) (h0 : ¬t.val % 4 = 0) (h1 : ¬t.val % 4 = 3) (xs : Vec F S512x512 .f32 × Vec F S512x512 .f32) (y : S512x512.Idx) :
    ∃ pc ∈ (rB m c t h0 h1 xs).2.1, y ∈ pc.1.set := View.cover_of_tiledL (rB m c t h0 h1 xs).2.1 S512x512.size (by sl_kernel_rfl) y
theorem coverC_7 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).1, y ∈ pc.1.set := View.cover_of_tiledL (rC m c t h0 h1 xs).1 S512x512.size (by sl_kernel_rfl) y
theorem coverC_8 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).2.1, y ∈ pc.1.set := View.cover_of_tiledL (rC m c t h0 h1 xs).2.1 S512x512.size (by sl_kernel_rfl) y
theorem coverC_9 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).2.2.1, y ∈ pc.1.set := View.cover_of_tiledL (rC m c t h0 h1 xs).2.2.1 S512x512.size (by sl_kernel_rfl) y
theorem coverC_s0 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).2.2.2.1, y ∈ pc.1.set := View.cover_of_tiledL (rC m c t h0 h1 xs).2.2.2.1 S512x512.size (by sl_kernel_rfl) y
theorem coverC_s1 (c : Dev nD) (t : Fin cfg0.N) (h0 : ¬t.val % 4 = 0) (h1 : t.val % 4 = 3) (xs : Vec F S512x512 .f32 × Vec F S512x512 .f32) (y : S512x512.Idx) :
    ∃ pc ∈ (rC m c t h0 h1 xs).2.2.2.2.1, y ∈ pc.1.set := View.cover_of_tiledL (rC m c t h0 h1 xs).2.2.2.2.1 S512x512.size (by sl_kernel_rfl) y

/-! ## What each case leaves: the pieces read back -/

/-- The accumulators after a first-slice point. -/
def sA (c : Dev nD) (t : Fin cfg0.N) (h0 : t.val % 4 = 0) (h1 : ¬t.val % 4 = 3) : Vec F S512x512 .f32 × Vec F S512x512 .f32 :=
  (VS0_0.read (Elt F) (VS0_0.writes (Elt F) VS0_0.junk (rA m c t h0 h1).1), VS0_1.read (Elt F) (VS0_1.writes (Elt F) VS0_1.junk (rA m c t h0 h1).2.1))
/-- The accumulators after a middle-slice point that found them at `xs`. -/
def sB (c : Dev nD) (t : Fin cfg0.N) (h0 : ¬t.val % 4 = 0) (h1 : ¬t.val % 4 = 3) (xs : Vec F S512x512 .f32 × Vec F S512x512 .f32) : Vec F S512x512 .f32 × Vec F S512x512 .f32 :=
  (VS0_0.read (Elt F) (VS0_0.writes (Elt F) VS0_0.junk (rB m c t h0 h1 xs).1), VS0_1.read (Elt F) (VS0_1.writes (Elt F) VS0_1.junk (rB m c t h0 h1 xs).2.1))
/-- The accumulators after a last-slice point that found them at `xs`. -/
def sC (c : Dev nD) (t : Fin cfg0.N) (h0 : ¬t.val % 4 = 0) (h1 : t.val % 4 = 3) (xs : Vec F S512x512 .f32 × Vec F S512x512 .f32) : Vec F S512x512 .f32 × Vec F S512x512 .f32 :=
  (VS0_0.read (Elt F) (VS0_0.writes (Elt F) VS0_0.junk (rC m c t h0 h1 xs).2.2.2.1), VS0_1.read (Elt F) (VS0_1.writes (Elt F) VS0_1.junk (rC m c t h0 h1 xs).2.2.2.2.1))
/-- The three result buffers (next spikes, next current, next potential) after a last-slice point. -/
def oC (c : Dev nD) (t : Fin cfg0.N) (h0 : ¬t.val % 4 = 0) (h1 : t.val % 4 = 3) (xs : Vec F S512x512 .f32 × Vec F S512x512 .f32) : Vec F S512x512 .f32 × Vec F S512x512 .f32 × Vec F S512x512 .f32 :=
  (VO0_7.read (Elt F) (VO0_7.writes (Elt F) VO0_7.junk (rC m c t h0 h1 xs).1), VO0_8.read (Elt F) (VO0_8.writes (Elt F) VO0_8.junk (rC m c t h0 h1 xs).2.1),
    VO0_9.read (Elt F) (VO0_9.writes (Elt F) VO0_9.junk (rC m c t h0 h1 xs).2.2.1))

/-! ## The accumulators point by point -/

/-- What the two accumulators hold after the body at position `n`: by recursion on the position, the case chosen by k = n mod 4. -/
def sAt (c : Dev nD) : (n : ℕ) → n < cfg0.N → Vec F S512x512 .f32 × Vec F S512x512 .f32
  | 0, hn => sA m c ⟨0, hn⟩ (Nat.zero_mod 4) (by show ¬(0 % 4 = 3); decide)
  | n + 1, hn =>
    if h0 : (n + 1) % 4 = 0 then sA m c ⟨n + 1, hn⟩ h0 (by show ¬((n + 1) % 4 = 3); omega)
    else if h1 : (n + 1) % 4 = 3 then sC m c ⟨n + 1, hn⟩ h0 h1 (sAt c n (Nat.lt_of_succ_lt hn))
    else sB m c ⟨n + 1, hn⟩ h0 h1 (sAt c n (Nat.lt_of_succ_lt hn))

theorem sAt_A (c : Dev nD) (t : Fin cfg0.N) (h0 : t.val % 4 = 0) (h1 : ¬t.val % 4 = 3) :
    sAt m c t.val t.isLt = sA m c t h0 h1 := by
  obtain ⟨n, hn⟩ := t
  cases n with
  | zero => exact rfl
  | succ n => exact (dif_pos h0).trans rfl

theorem sAt_B (c : Dev nD) (t : Fin cfg0.N) (h0 : ¬t.val % 4 = 0) (h1 : ¬t.val % 4 = 3) :
    sAt m c t.val t.isLt = sB m c t h0 h1 (sAt m c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

theorem sAt_C (c : Dev nD) (t : Fin cfg0.N) (h0 : ¬t.val % 4 = 0) (h1 : t.val % 4 = 3) :
    sAt m c t.val t.isLt = sC m c t h0 h1 (sAt m c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-- The three result buffers after the body at point `t`: the last-slice run's stores where k = 3; where k ≠ 3 the windows are
    idle and not written back, and this value is not consulted. -/
def oAt (c : Dev nD) (t : Fin cfg0.N) : Vec F S512x512 .f32 × Vec F S512x512 .f32 × Vec F S512x512 .f32 :=
  if h1 : t.val % 4 = 3 then oC m c t (fun h => by omega) h1 (sAt m c (t.val - 1) (Nat.lt_of_le_of_lt (Nat.sub_le _ _) t.isLt))
  else (VO0_7.read (Elt F) VO0_7.junk, VO0_8.read (Elt F) VO0_8.junk, VO0_9.read (Elt F) VO0_9.junk)

theorem oAt_C (c : Dev nD) (t : Fin cfg0.N) (h0 : ¬t.val % 4 = 0) (h1 : t.val % 4 = 3) :
    oAt m c t = oC m c t h0 h1 (sAt m c (t.val - 1) (Nat.lt_of_le_of_lt (Nat.sub_le _ _) t.isLt)) := dif_pos h1

/-! ## The invariant between points -/

/-- Before the first point the accumulators hold anything; after position `n` they hold `sAt n`. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare ((sAt m c n hn).1) ∗ owns (c : Thread nD τ) scM0_1 fullShare ((sAt m c n hn).2))

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d)) := by
  subst hz; rfl

theorem PhiS_succ (c : Dev nD) (n : ℕ) (hn : n < cfg0.N) :
    PhiS m c (n + 1) hn = iprop(owns (c : Thread nD τ) scM0_0 fullShare ((sAt m c n hn).1) ∗ owns (c : Thread nD τ) scM0_1 fullShare ((sAt m c n hn).2)) := rfl

theorem PhiS_pos (c : Dev nD) (n : ℕ) (h : n ≤ cfg0.N) (hz : n ≠ 0) :
    PhiS m c n h = iprop(owns (c : Thread nD τ) scM0_0 fullShare ((sAt m c (n - 1) (by omega)).1) ∗ owns (c : Thread nD τ) scM0_1 fullShare ((sAt m c (n - 1) (by omega)).2)) := by
  cases n with
  | zero => exact absurd rfl hz
  | succ n => rfl

/-! ## The pipeline's proof data -/

/-- On core `c`: the arrays as the region finds them; after the body each input's buffer at its block, the results' at `oAt`;
    the invariant `PhiS`; nothing owed; the spikes' array shared in halves between its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (oAt m c t).1
    | ⟨8, _⟩ => (oAt m c t).2.1
    | ⟨9, _⟩ => (oAt m c t).2.2
  Φ t := PhiS m c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (oAt m c t).1 := by dsimp only [dats]
theorem after0_8 (c : Dev nD) (t : Fin cfg0.N) : (dats m 0 c).after 8 t = (oAt m c t).2.1 := by dsimp only [dats]
theorem after0_9 (c : Dev nD) (t : Fin cfg0.N) : (dats m 0 c).after 9 t = (oAt m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

end Cert.KernelIdeal.Fr

end
-- ==== Proof.KI.Body.lean ====
/-
  The body's obligation at every point of the grid: from the invariant and the windows' current staging buffers, the body
  runs to the invariant at the next position and each buffer at what the proof data says it leaves. By cases on k = t mod 4.
-/
import proofs.«140393_j64424509440615_1_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, the (empty) debts, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- At any point: the inputs' buffers hold their blocks; k decides which run applies; the invariant hands the body the accumulators
    at what the point before left (at anything before the first point) and takes them back at this point's contents; where k ≠ 3 the
    result windows are idle and handed back as found, where k = 3 they end at what the run stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h1 : t.val % 4 = 3
  · have h0 : ¬t.val % 4 = 0 := by omega
    have hz : t.val ≠ 0 := by omega
    rw [show (dats m 0 c).leavesExact 7 t = owns (c : Thread nD τ) (ms0_7 t) fullShare ((dats m 0 c).after 7 t) from by
      unfold Dat.leavesExact; rw [liveAt0_7 t ((hcond0_1 t).mpr h1)], after0_7]
    rw [show (dats m 0 c).leavesExact 8 t = owns (c : Thread nD τ) (ms0_8 t) fullShare ((dats m 0 c).after 8 t) from by
      unfold Dat.leavesExact; rw [liveAt0_8 t ((hcond0_1 t).mpr h1)], after0_8]
    rw [show (dats m 0 c).leavesExact 9 t = owns (c : Thread nD τ) (ms0_9 t) fullShare ((dats m 0 c).after 9 t) from by
      unfold Dat.leavesExact; rw [liveAt0_9 t ((hcond0_1 t).mpr h1)], after0_9]
    rw [sAt_C m c t h0 h1, oAt_C m c t h0 h1]
    unfold sC oC; (try dsimp only)
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((rC m c t h0 h1 (sAt m c (t.val - 1) (Nat.lt_of_le_of_lt (Nat.sub_le _ _) t.isLt))).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%e7, H7⟩, ⟨%e8, H8⟩, ⟨%e9, H9⟩, ⟨%es0, HS0⟩, ⟨%es1, HS1⟩⟩
    isplitl [HS0 HS1]
    · isplitl [HS0]
      · unfold owns; iexists _; isplitr
        swap; · iexact HS0
        ipureintro; exact View.read_writes_of_cover _ _ _ _ _ (coverC_s0 m c t h0 h1 _)
      · unfold owns; iexists _; isplitr
        swap; · iexact HS1
        ipureintro; exact View.read_writes_of_cover _ _ _ _ _ (coverC_s1 m c t h0 h1 _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverC_7 m c t h0 h1 _)
    isplitl [H8]
    · unfold owns; iexists _; isplitr
      swap; · iexact H8
      ipureintro; exact View.read_writes_of_cover _ _ _ _ _ (coverC_8 m c t h0 h1 _)
    unfold owns; iexists _; isplitr
    swap; · iexact H9
    ipureintro; exact View.read_writes_of_cover _ _ _ _ _ (coverC_9 m c t h0 h1 _)
  · rw [Dat.leavesExact_idle (dats m 0 c) 7 t (idleAt0_7 t (fun h => h1 ((hcond0_1 t).mp h))) (noFlush0_7 t (fun h => h1 ((hcond0_1 t).mp h)))]
    rw [Dat.leavesExact_idle (dats m 0 c) 8 t (idleAt0_8 t (fun h => h1 ((hcond0_1 t).mp h))) (noFlush0_8 t (fun h => h1 ((hcond0_1 t).mp h)))]
    rw [Dat.leavesExact_idle (dats m 0 c) 9 t (idleAt0_9 t (fun h => h1 ((hcond0_1 t).mp h))) (noFlush0_9 t (fun h => h1 ((hcond0_1 t).mp h)))]
    by_cases h0 : t.val % 4 = 0
    · rw [sAt_A m c t h0 h1]
      unfold sA; (try dsimp only)
      by_cases hz : t.val = 0
      · rw [PhiS_castSucc m c t, PhiS_zero m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((rA m c t h0 h1).2.2 Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scoverA_0 m c t h0 h1)
          · unfold owns; iexists _; isplitr
            swap; · iexact HS1
            ipureintro; exact View.read_writes_of_cover _ _ _ _ _ (scoverA_1 m c t h0 h1)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((rA m c t h0 h1).2.2 Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scoverA_0 m c t h0 h1)
          · unfold owns; iexists _; isplitr
            swap; · iexact HS1
            ipureintro; exact View.read_writes_of_cover _ _ _ _ _ (scoverA_1 m c t h0 h1)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9
    · have hz : t.val ≠ 0 := fun e => h0 (by rw [e])
      rw [sAt_B m c t h0 h1]
      unfold sB; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((rB m c t h0 h1 (sAt m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1]
      · isplitl [HS0]
        · unfold owns; iexists _; isplitr
          swap; · iexact HS0
          ipureintro; exact View.read_writes_of_cover _ _ _ _ _ (scoverB_0 m c t h0 h1 _)
        · unfold owns; iexists _; isplitr
          swap; · iexact HS1
          ipureintro; exact View.read_writes_of_cover _ _ _ _ _ (scoverB_1 m c t h0 h1 _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- The kernel's two scoped buffers that are no staging buffer are the accumulators. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

/-- What the launch hands the region — the accumulators at anything — is the invariant before the first point. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest0_owns]
  iintro ⟨-, H⟩; iexact H

/-- After the last point the accumulators' contents are forgotten again. -/
theorem hout (c : Dev nD) : (dats m 0 c).Φ (Fin.last cfg0.N) ⊢ iprop(emp ∗ Pipeline.scopedRest spec0 c) := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, scopedRest0_owns]
  iintro ⟨HS0, HS1⟩
  isplitr; · iempintro
  isplitl [HS0]
  · iexists _; iexact HS0
  · iexists _; iexact HS1

end Cert.KernelIdeal.Fr

end
-- ==== Proof.KI.Split.lean ====
/-
  The launch of the pipelined kernel: how the buffers behind the windows' arrays are dealt to the ten windows.

  The ten windows stage nine distinct arrays: the spikes' array is staged twice, once by its (i, k) blocks (window 2,
  the recurrent product's left factor) and once by its (i, j) blocks (window 4, read pointwise). At the entry every
  buffer is held whole at the full share. Each of the eight arrays staged once goes whole to its window; the spikes'
  full share is the composite of its two halves, the left half going to window 2 and the right half to window 4. Both
  windows only read, so a half share each is enough, and both see the same entry contents.
-/
import proofs.«140393_j64424509440615_1_alg».proof.Proof.Gen.KernelIdeal.Launch
import Idealize.ShloMosaic.Lib.Pipeline.Launch
import Idealize.ShloMosaic.Lib.Pipeline.Kit
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the ten windows' arrays, listed once each: the spikes' array serves two windows. -/
theorem arrImage0 :
    Finset.univ.image (Pipeline.arrRef spec0)
      = [main_arg0, main_arg4, main_arg3, main_arg5, main_arg1, main_arg2, main_v0_0, main_v0_1, main_v0_2].toFinset := by
  decide

/-- The nine buffers are pairwise distinct. -/
theorem arrList_nodup :
    [main_arg0, main_arg4, main_arg3, main_arg5, main_arg1, main_arg2, main_v0_0, main_v0_1, main_v0_2].Nodup := by
  decide

/-- One window's conjunct of the pipeline's arrays: its array is a whole buffer, so the conjunct is the buffer behind
    it held whole, at the window's share and at the entry contents. -/
theorem arr_conj_eq (c : Dev nD) (dat : Dat τ (Elt F) Unit ℕ (UR sig nD τ) ℕ cfg0 c)
    (Vb : (b : Ref sig .tc) → Buf (Elt F) ((c : Thread nD τ).loc b))
    (G : (w : Fin cfg0.W) → Buf (Elt F) ((cfg0.win w).arr.view.loc (c.tc : Thread nD τ)))
    (hG : ∀ w, G w = Vb (Pipeline.arrRef spec0 w)) (w : Fin 10) (s : PosShare TreeShare) (hs : dat.share w = s) :
    ((cfg0.win w).arr.view.loc (c.tc : Thread nD τ) ↦[(cfg0.win w).arr.view.set]{dat.share w} G w : sProp 𝕄)
      = ((c.tc : Thread nD τ).loc (Pipeline.arrRef spec0 w)) ↦{s} Vb (Pipeline.arrRef spec0 w) := by
  rw [(arr_whole0 w).set_eq_univ, hs, hG]

/-- The nine buffers behind the windows' arrays, each whole at the full share at the entry contents, make the
    pipeline's arrays at those contents: the windows on the spikes' array hold the left (window 2) and the right
    (window 4) half of its share, every other input window and the three result windows the full share. -/
theorem arrays_of_arrBufs (c : Dev nD) (dat : Dat τ (Elt F) Unit ℕ (UR sig nD τ) ℕ cfg0 c)
    (hq2 : dat.q 2 = fullShare.left) (hq4 : dat.q 4 = fullShare.right)
    (hq : ∀ w : Fin 10, w ≠ 2 → w ≠ 4 → dat.q w = fullShare)
    (Vb : (b : Ref sig .tc) → Buf (Elt F) ((c : Thread nD τ).loc b))
    (G : (w : Fin cfg0.W) → Buf (Elt F) ((cfg0.win w).arr.view.loc (c.tc : Thread nD τ)))
    (hG : ∀ w, G w = Vb (Pipeline.arrRef spec0 w)) :
    (Pipeline.arrBufs spec0 c Vb : sProp 𝕄) ⊢ dat.arrays G := by
  have hs0 : dat.share 0 = fullShare := hq 0 (by decide) (by decide)
  have hs1 : dat.share 1 = fullShare := hq 1 (by decide) (by decide)
  have hs2 : dat.share 2 = fullShare.left := hq2
  have hs3 : dat.share 3 = fullShare := hq 3 (by decide) (by decide)
  have hs4 : dat.share 4 = fullShare.right := hq4
  have hs5 : dat.share 5 = fullShare := hq 5 (by decide) (by decide)
  have hs6 : dat.share 6 = fullShare := hq 6 (by decide) (by decide)
  have hs7 : dat.share 7 = fullShare := rfl
  have hs8 : dat.share 8 = fullShare := rfl
  have hs9 : dat.share 9 = fullShare := rfl
  have hR : (dat.arrays G : sProp 𝕄) = iprop(
      (((c.tc : Thread nD τ).loc (Pipeline.arrRef spec0 0)) ↦{fullShare} Vb (Pipeline.arrRef spec0 0))
      ∗ (((c.tc : Thread nD τ).loc (Pipeline.arrRef spec0 1)) ↦{fullShare} Vb (Pipeline.arrRef spec0 1))
      ∗ (((c.tc : Thread nD τ).loc (Pipeline.arrRef spec0 2)) ↦{fullShare.left} Vb (Pipeline.arrRef spec0 2))
      ∗ (((c.tc : Thread nD τ).loc (Pipeline.arrRef spec0 3)) ↦{fullShare} Vb (Pipeline.arrRef spec0 3))
      ∗ (((c.tc : Thread nD τ).loc (Pipeline.arrRef spec0 4)) ↦{fullShare.right} Vb (Pipeline.arrRef spec0 4))
      ∗ (((c.tc : Thread nD τ).loc (Pipeline.arrRef spec0 5)) ↦{fullShare} Vb (Pipeline.arrRef spec0 5))
      ∗ (((c.tc : Thread nD τ).loc (Pipeline.arrRef spec0 6)) ↦{fullShare} Vb (Pipeline.arrRef spec0 6))
      ∗ (((c.tc : Thread nD τ).loc (Pipeline.arrRef spec0 7)) ↦{fullShare} Vb (Pipeline.arrRef spec0 7))
      ∗ (((c.tc : Thread nD τ).loc (Pipeline.arrRef spec0 8)) ↦{fullShare} Vb (Pipeline.arrRef spec0 8))
      ∗ (((c.tc : Thread nD τ).loc (Pipeline.arrRef spec0 9)) ↦{fullShare} Vb (Pipeline.arrRef spec0 9))) := by
    unfold Dat.arrays
    rw [bigSep_W0, arr_conj_eq c dat Vb G hG 0 _ hs0, arr_conj_eq c dat Vb G hG 1 _ hs1, arr_conj_eq c dat Vb G hG 2 _ hs2,
      arr_conj_eq c dat Vb G hG 3 _ hs3, arr_conj_eq c dat Vb G hG 4 _ hs4, arr_conj_eq c dat Vb G hG 5 _ hs5,
      arr_conj_eq c dat Vb G hG 6 _ hs6, arr_conj_eq c dat Vb G hG 7 _ hs7, arr_conj_eq c dat Vb G hG 8 _ hs8,
      arr_conj_eq c dat Vb G hG 9 _ hs9]
  have hL : (Pipeline.arrBufs spec0 c Vb : sProp 𝕄) = iprop(
      (((c.tc : Thread nD τ).loc main_arg0) ↦{fullShare} Vb main_arg0)
      ∗ (((c.tc : Thread nD τ).loc main_arg4) ↦{fullShare} Vb main_arg4)
      ∗ (((c.tc : Thread nD τ).loc main_arg3) ↦{fullShare} Vb main_arg3)
      ∗ (((c.tc : Thread nD τ).loc main_arg5) ↦{fullShare} Vb main_arg5)
      ∗ (((c.tc : Thread nD τ).loc main_arg1) ↦{fullShare} Vb main_arg1)
      ∗ (((c.tc : Thread nD τ).loc main_arg2) ↦{fullShare} Vb main_arg2)
      ∗ (((c.tc : Thread nD τ).loc main_v0_0) ↦{fullShare} Vb main_v0_0)
      ∗ (((c.tc : Thread nD τ).loc main_v0_1) ↦{fullShare} Vb main_v0_1)
      ∗ (((c.tc : Thread nD τ).loc main_v0_2) ↦{fullShare} Vb main_v0_2)) := by
    unfold Pipeline.arrBufs
    exact bigSep_eq_bigSepL_of_eq _ arrImage0 arrList_nodup _
  rw [hL, hR]
  iintro ⟨H0, H1, H2, H3, H5, H6, H7, H8, H9⟩
  ihave H := (pointsTo_share (PosShare.mem_left_op_right fullShare)).1 $$ H2
  icases H with ⟨H2, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Fr

end
-- ==== Proof.KI.Launch.lean ====
/-
  The launch: every weakly fair execution of @main terminates, nothing faults, and each array of the pipeline ends at what the
  proof data computes for it — an input at its contents at entry, a result at its entry contents overwritten block by
  block by what the last-slice points wrote back. The spikes' array is handed to the pipeline once and dealt to its two
  windows in halves.
-/
import proofs.«140393_j64424509440615_1_alg».proof.Proof.KI.Body
import proofs.«140393_j64424509440615_1_alg».proof.Proof.KI.Split
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window but the two on the spikes' array holds its array whole. -/
theorem q_full (c : Dev nD) : ∀ w : Fin 10, w ≠ 2 → w ≠ 4 → (dats m 0 c).q w = fullShare := fun w h2 h4 => by
  fin_cases w <;> first | rfl | exact absurd rfl h2 | exact absurd rfl h4

-- the launch theorem's implicit arguments are found by unifying its conclusion with this one, which takes unfolding plain
-- definitions in a metavariable's type
set_option backward.isDefEq.respectTransparency.types false in
/-- At the compiled mesh, for any float values, from any memory with zero counters: every weakly fair execution of @main on the
    TensorCores terminates, and in every final state every array of the pipeline holds what the proof data computes. -/
theorem run_main : θ_run defs (onTc (τ := τ) (main (F := F))) ⟨m, fun _ => 0, ρ⟩
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := fun c => arrays_of_arrBufs c (dats m 0 c) rfl rfl (q_full m c) (fun b => m ((c : Thread nD τ).loc b)) _ (fun w => A_eq m c w))
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- An argument array staged by input window `w` ends at its launch contents. -/
theorem kept_of_run {r : PUnit × MemSt nD τ sig (Elt F)}
    (h : ∀ (c : Dev nD) (w : Fin cfg0.W), r.2.mem ((cfg0.spec w).arr.view.loc (c.tc : Thread nD τ)) = (dats m 0 c).arrAt w cfg0.N)
    (c : Dev nD) (w : Fin cfg0.W) (hw : (cfg0.win w).isOut = false) :
    r.2.mem ((cfg0.spec w).arr.view.loc (c.tc : Thread nD τ)) = V m c (Pipeline.arrRef spec0 w) :=
  (h c w).trans (((dats m 0 c).arrAt_in w hw _).trans (A_eq m c w))

/-- The frame: the program runs to the end, faults nowhere, and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun r h c => ⟨kept_of_run m h c 0 rfl, kept_of_run m h c 5 rfl, kept_of_run m h c 6 rfl, kept_of_run m h c 2 rfl, kept_of_run m h c 1 rfl, kept_of_run m h c 3 rfl⟩) (run_main m ρ)

end Cert.KernelIdeal.Fr

end
-- ==== Proof.KI.Pieces.lean ====
/-
  What each case of the body leaves in the buffers it writes, as the body's arithmetic applied to the blocks it read.

  The first slice (k = 0) leaves each accumulator at the slice's partial product added to the cleared block; a middle or
  the last slice, at the partial product added to the contents carried from the point before. The last slice then
  computes the three results from the current, spike and potential blocks and from the two accumulators as it has just
  left them. In every case each written buffer's last store covers the whole block, so the buffer holds that store's
  value, and every load reads a whole buffer: the block it was handed at, or the value the store before it left.
-/
import proofs.«140393_j64424509440615_1_alg».proof.Proof.KI.Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores and loads of the body are at offsets zero of a whole block. -/
theorem hz : (![0, 0] : Fin 2 → Nat) = fun _ => 0 := funext fun a => by fin_cases a <;> rfl

/-- Reading the first accumulator whole returns the contents it was handed at. -/
theorem read_sc0 (h : scM0_0.IsWhole) (X : Vec F S512x512 .f32) :
    View.read (Elt F) (View.whole cc0_scratch0) (h.unread X) = X := h.read_unread X
/-- Reading the second accumulator whole returns the contents it was handed at. -/
theorem read_sc1 (h : scM0_1.IsWhole) (X : Vec F S512x512 .f32) :
    View.read (Elt F) (View.whole cc0_scratch1) (h.unread X) = X := h.read_unread X

set_option maxHeartbeats 1000000 in
/-- The first slice clears each accumulator, loads the cleared block back and adds the slice's partial product to it: the
    last store covers the buffer, and the block it loaded is what the clearing store left. -/
theorem sA_eq (c : Dev nD) (t : Fin cfg0.N) (h0 : t.val % 4 = 0) (h1 : ¬t.val % 4 = 3) :
    sA m c t h0 h1 = (k0_pay3 (iblk m c 0 t) (iblk m c 1 t) (k0_pay1 (F := F)), k0_pay4 (iblk m c 2 t) (iblk m c 3 t) (k0_pay2 (F := F))) := by
  unfold sA
  rw [Prod.mk.injEq]
  constructor
  · rw [View.read_writes_eq_canon _ _ _ (scoverA_0 m c t h0 h1)]
    unfold rA kernelRun0_A
    dsimp only
    sl_unfold_words
    rw [View.canon_cons_unit_zero (S := S512x512) hz, View.readCov_unit_zero (S := S512x512) _ hz]
    simp only [View.readAt_eq_ld, Memref.IsWhole.read_unread, View.ld_unit_zero (S := S512x512) hz]
  · rw [View.read_writes_eq_canon _ _ _ (scoverA_1 m c t h0 h1)]
    unfold rA kernelRun0_A
    dsimp only
    sl_unfold_words
    rw [View.canon_cons_unit_zero (S := S512x512) hz, View.readCov_unit_zero (S := S512x512) _ hz]
    simp only [View.readAt_eq_ld, Memref.IsWhole.read_unread, View.ld_unit_zero (S := S512x512) hz]

set_option maxHeartbeats 1000000 in
/-- A middle slice leaves each accumulator at its carried contents plus that slice's partial product: each buffer's one
    store covers it, and its payload's loads read whole buffers. -/
theorem sB_eq (c : Dev nD) (t : Fin cfg0.N) (h0 : ¬t.val % 4 = 0) (h1 : ¬t.val % 4 = 3) (xs : Vec F S512x512 .f32 × Vec F S512x512 .f32) :
    sB m c t h0 h1 xs = (k0_pay3 (iblk m c 0 t) (iblk m c 1 t) xs.1, k0_pay4 (iblk m c 2 t) (iblk m c 3 t) xs.2) := by
  unfold sB
  rw [Prod.mk.injEq]
  constructor
  · rw [View.read_writes_eq_canon _ _ _ (scoverB_0 m c t h0 h1 xs)]
    unfold rB kernelRun0_B
    dsimp only
    rw [View.canon_unit_zero hz]
    simp only [View.readAt_eq_ld, Memref.IsWhole.read_unread, View.ld_unit_zero (S := S512x512) hz, read_sc0]
  · rw [View.read_writes_eq_canon _ _ _ (scoverB_1 m c t h0 h1 xs)]
    unfold rB kernelRun0_B
    dsimp only
    rw [View.canon_unit_zero hz]
    simp only [View.readAt_eq_ld, Memref.IsWhole.read_unread, View.ld_unit_zero (S := S512x512) hz, read_sc1]

set_option maxHeartbeats 1000000 in
/-- The last slice leaves the accumulators as a middle slice does. -/
theorem sC_eq (c : Dev nD) (t : Fin cfg0.N) (h0 : ¬t.val % 4 = 0) (h1 : t.val % 4 = 3) (xs : Vec F S512x512 .f32 × Vec F S512x512 .f32) :
    sC m c t h0 h1 xs = (k0_pay3 (iblk m c 0 t) (iblk m c 1 t) xs.1, k0_pay4 (iblk m c 2 t) (iblk m c 3 t) xs.2) := by
  unfold sC
  rw [Prod.mk.injEq]
  constructor
  · rw [View.read_writes_eq_canon _ _ _ (coverC_s0 m c t h0 h1 xs)]
    unfold rC kernelRun0_C
    dsimp only
    sl_unfold_words
    rw [View.canon_unit_zero hz]
    simp only [View.readAt_eq_ld, Memref.IsWhole.read_unread, View.ld_unit_zero (S := S512x512) hz, read_sc0]
  · rw [View.read_writes_eq_canon _ _ _ (coverC_s1 m c t h0 h1 xs)]
    unfold rC kernelRun0_C
    dsimp only
    sl_unfold_words
    rw [View.canon_unit_zero hz]
    simp only [View.readAt_eq_ld, Memref.IsWhole.read_unread, View.ld_unit_zero (S := S512x512) hz, read_sc1]

set_option maxHeartbeats 2000000 in
/-- The three results of the last slice, over the accumulators as this point's accumulation left them: each result buffer's
    one store covers it, and the accumulators it loads are what the accumulating stores just left. -/
theorem oC_eq' (c : Dev nD) (t : Fin cfg0.N) (h0 : ¬t.val % 4 = 0) (h1 : t.val % 4 = 3) (xs : Vec F S512x512 .f32 × Vec F S512x512 .f32) :
    oC m c t h0 h1 xs =
      (k0_pay7 (iblk m c 5 t) (k0_pay3 (iblk m c 0 t) (iblk m c 1 t) xs.1) (k0_pay4 (iblk m c 2 t) (iblk m c 3 t) xs.2) (iblk m c 4 t) (iblk m c 6 t),
       k0_pay5 (iblk m c 5 t) (k0_pay3 (iblk m c 0 t) (iblk m c 1 t) xs.1) (k0_pay4 (iblk m c 2 t) (iblk m c 3 t) xs.2),
       k0_pay6 (iblk m c 5 t) (k0_pay3 (iblk m c 0 t) (iblk m c 1 t) xs.1) (k0_pay4 (iblk m c 2 t) (iblk m c 3 t) xs.2) (iblk m c 4 t) (iblk m c 6 t)) := by
  unfold oC
  rw [Prod.mk.injEq, Prod.mk.injEq]
  refine ⟨?_, ?_, ?_⟩
  · rw [View.read_writes_eq_canon _ _ _ (coverC_7 m c t h0 h1 xs)]
    unfold rC kernelRun0_C
    dsimp only
    sl_unfold_words
    rw [View.canon_unit_zero hz]
    simp only [View.readCov_unit_zero (S := S512x512) _ hz, View.readAt_eq_ld, Memref.IsWhole.read_unread, View.ld_unit_zero (S := S512x512) hz, read_sc0, read_sc1]
  · rw [View.read_writes_eq_canon _ _ _ (coverC_8 m c t h0 h1 xs)]
    unfold rC kernelRun0_C
    dsimp only
    sl_unfold_words
    rw [View.canon_unit_zero hz]
    simp only [View.readCov_unit_zero (S := S512x512) _ hz, View.readAt_eq_ld, Memref.IsWhole.read_unread, View.ld_unit_zero (S := S512x512) hz, read_sc0, read_sc1]
  · rw [View.read_writes_eq_canon _ _ _ (coverC_9 m c t h0 h1 xs)]
    unfold rC kernelRun0_C
    dsimp only
    sl_unfold_words
    rw [View.canon_unit_zero hz]
    simp only [View.readCov_unit_zero (S := S512x512) _ hz, View.readAt_eq_ld, Memref.IsWhole.read_unread, View.ld_unit_zero (S := S512x512) hz, read_sc0, read_sc1]

/-- The same, over the accumulators named as what the last slice leaves. -/
theorem oC_eq (c : Dev nD) (t : Fin cfg0.N) (h0 : ¬t.val % 4 = 0) (h1 : t.val % 4 = 3) (xs : Vec F S512x512 .f32 × Vec F S512x512 .f32) :
    oC m c t h0 h1 xs =
      (k0_pay7 (iblk m c 5 t) (sC m c t h0 h1 xs).1 (sC m c t h0 h1 xs).2 (iblk m c 4 t) (iblk m c 6 t),
       k0_pay5 (iblk m c 5 t) (sC m c t h0 h1 xs).1 (sC m c t h0 h1 xs).2,
       k0_pay6 (iblk m c 5 t) (sC m c t h0 h1 xs).1 (sC m c t h0 h1 xs).2 (iblk m c 4 t) (iblk m c 6 t)) := by
  rw [sC_eq]
  exact oC_eq' m c t h0 h1 xs

end Cert.KernelIdeal.Fr

end
-- ==== Proof.Spec.lean ====
/-
  The layer's single step, as functions of the six argument arrays on the extended reals, index by index.

  With x the inputs [4096, 2048], I, V, Z the synaptic current, membrane potential and spikes [4096, 2048],
  fw and rw the forward and recurrent weights [2048, 2048], and a, b the two decay factors (kept as their
  single-precision words, never evaluated):

    nextI (p, q) = (a * I (p, q) + sum over k < 2048 of x (p, k) * fw (k, q)) + sum over k < 2048 of Z (p, k) * rw (k, q)
    nextV (p, q) = (b * V (p, q) + nextI (p, q)) * (1 - Z (p, q))
    nextZ (p, q) = 1 if nextV (p, q) - 1 > 0, else 0   (the comparison's bit, read as a number)

  No program is imported here: both programs are shown to compute these three functions.
-/
import Idealize.ShloMosaic.PureOps.Ideal
import Idealize.ShloMosaic.Lib.ValueIdx

noncomputable section

namespace Cert.Lif.Spec

open Idealize.ShloMosaic Idealize.ShloMosaic.ValueIdx

/-- The shape of the inputs, the three state arrays and the three results. -/
abbrev SAct : Shape := ⟨2, ![4096, 2048]⟩
/-- The shape of the two weight matrices. -/
abbrev SWgt : Shape := ⟨2, ![2048, 2048]⟩

/-- Entry (p, q) of the matrix product l · r: the sum over the shared axis. -/
def dotAt (l : SAct.Idx → EReal) (r : SWgt.Idx → EReal) (i : SAct.Idx) : EReal :=
  ∑ k : Fin 2048, l (ix2 (i 0) k) * r (ix2 k (i 1))

/-- The synaptic decay factor's word. -/
abbrev decayI : EReal := Ideal.ofBits .f32 0x3F67A36D#32
/-- The membrane decay factor's word. -/
abbrev decayV : EReal := Ideal.ofBits .f32 0x3F519857#32
/-- The word of one. -/
abbrev one : EReal := Ideal.ofBits .f32 0x3F800000#32
/-- The word of zero. -/
abbrev zero : EReal := Ideal.ofBits .f32 0x00000000#32

/-- The next synaptic current: the decayed current plus the forward and the recurrent drive, added in this order. -/
def nextI (x I Z : SAct.Idx → EReal) (fw rw : SWgt.Idx → EReal) (i : SAct.Idx) : EReal :=
  (decayI * I i + dotAt x fw i) + dotAt Z rw i

/-- The next membrane potential: decayed potential plus the new current, reset to zero where the unit spiked. -/
def nextV (x I V Z : SAct.Idx → EReal) (fw rw : SWgt.Idx → EReal) (i : SAct.Idx) : EReal :=
  (decayV * V i + nextI x I Z fw rw i) * (one - Z i)

/-- The threshold comparison's bit: the next potential less one, against zero. -/
def spikeBit (x I V Z : SAct.Idx → EReal) (fw rw : SWgt.Idx → EReal) (i : SAct.Idx) : BitVec 1 :=
  Ideal.cmp .ogt (nextV x I V Z fw rw i - one) zero

/-- The next spikes: that bit as a number. -/
def nextZ (x I V Z : SAct.Idx → EReal) (fw rw : SWgt.Idx → EReal) (i : SAct.Idx) : EReal :=
  (((spikeBit x I V Z fw rw i).toNat : ℝ) : EReal)

end Cert.Lif.Spec

end
-- ==== Proof.Payloads.lean ====
/-
  The idealized kernel's seven stored values, each read at one index (p, q) of the 512 × 512 block, on the
  extended reals.

  Two of them are the zero block. Two are a carried accumulator plus one 512 × 512 by 512 × 512 matrix product:
  entry (p, q) of the product is the sum over k < 512 of a (p, k) * b (k, q), the narrowing of the operands being
  the identity on extended reals. The last three are pointwise: the decayed current plus the two drives, the
  decayed potential plus that current times one minus the spike, and the threshold comparison's bit read as a number.
-/
import proofs.«140393_j64424509440615_1_alg».proof.Proof.Gen.KernelIdeal.Skeleton
import proofs.«140393_j64424509440615_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Lif.Payloads

open Idealize.ShloMosaic Idealize.ShloMosaic.ValueIdx Idealize.SL.Sem
open Cert.KernelIdeal Cert.KernelIdeal.Gen

variable [Cert.KernelIdeal.Facts]

/-! ## The matrix product at an index -/

/-- The left operand's index at output index j and contraction index q keeps the row of j. -/
theorem lhs_0 (j : S512x512.Idx) (q : dot_S512x512_S512x512_S512x512_1_0_0_1_n_n.contr.Idx) :
    (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- Its column is the contraction index. -/
theorem lhs_1 (j : S512x512.Idx) (q : dot_S512x512_S512x512_S512x512_1_0_0_1_n_n.contr.Idx) :
    (dot_S512x512_S512x512_S512x512_1_0_0_1_n_n.lhsIdx j q 1).val = (q ⟨0, by decide⟩).val :=
  dot_S512x512_S512x512_S512x512_1_0_0_1_n_n.lhsIdx_val_of_single rfl j q
/-- The right operand's row is the contraction index. -/
theorem rhs_0 (j : S512x512.Idx) (q : dot_S512x512_S512x512_S512x512_1_0_0_1_n_n.contr.Idx) :
    (dot_S512x512_S512x512_S512x512_1_0_0_1_n_n.rhsIdx j q 0).val = (q ⟨0, by decide⟩).val :=
  dot_S512x512_S512x512_S512x512_1_0_0_1_n_n.rhsIdx_val_of_single rfl j q
/-- Its column is the column of j. -/
theorem rhs_1 (j : S512x512.Idx) (q : dot_S512x512_S512x512_S512x512_1_0_0_1_n_n.contr.Idx) :
    (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Entry (p, q) of the product into the zero accumulator: the sum over the shared axis. -/
theorem matmul_apply_512 {φ₁ φ₂ : FTy} (a : FVec Ideal S512x512 φ₁) (b : FVec Ideal S512x512 φ₂) (p q : Fin 512) :
    matmul (F := Ideal) dot_S512x512_S512x512_S512x512_1_0_0_1_n_n none a b (constant S512x512 .f32 0x00000000#32) (ix2 p q)
      = ∑ k : Fin 512, a (ix2 p k) * b (ix2 k q) := by
  refine (Ideal.matmul_constant_zero_apply dot_S512x512_S512x512_S512x512_1_0_0_1_n_n none a b (ix2 p q)).trans ?_
  rw [← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun c => Fin.ext (by
    match c with
    | ⟨0, _⟩ => exact lhs_0 _ _
    | ⟨1, _⟩ => exact (lhs_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun c => Fin.ext (by
    match c with
    | ⟨0, _⟩ => exact (rhs_0 _ _).trans hk
    | ⟨1, _⟩ => exact rhs_1 _ _)
  rw [el, er]

/-! ## The two accumulations -/

/-- The first accumulator's new value: the carried value plus the product's entry. -/
theorem pay3_apply (v3 v5 v7 : Vec Ideal S512x512 .f32) (p q : Fin 512) :
    k0_pay3 (F := Ideal) v3 v5 v7 (ix2 p q) = v7 (ix2 p q) + ∑ k : Fin 512, v3 (ix2 p k) * v5 (ix2 k q) := by
  unfold k0_pay3
  rw [shapeCast_self]
  refine (addf_apply _ _ _).trans ?_
  rw [matmul_apply_512]
  rfl

/-- The second accumulator's new value: the carried value plus the product's entry. -/
theorem pay4_apply (v13 v15 v17 : Vec Ideal S512x512 .f32) (p q : Fin 512) :
    k0_pay4 (F := Ideal) v13 v15 v17 (ix2 p q) = v17 (ix2 p q) + ∑ k : Fin 512, v13 (ix2 p k) * v15 (ix2 k q) := by
  unfold k0_pay4
  rw [shapeCast_self]
  refine (addf_apply _ _ _).trans ?_
  rw [matmul_apply_512]
  rfl

/-! ## The two zero blocks -/

/-- The first accumulator's initial value is zero everywhere. -/
theorem pay1_apply (p q : Fin 512) : k0_pay1 (F := Ideal) (ix2 p q) = 0 := by
  unfold k0_pay1
  rw [shapeCast_self]
  exact Ideal.ofBits_zero_f32

/-- The second accumulator's initial value is zero everywhere. -/
theorem pay2_apply (p q : Fin 512) : k0_pay2 (F := Ideal) (ix2 p q) = 0 := by
  unfold k0_pay2
  rw [shapeCast_self]
  exact Ideal.ofBits_zero_f32

/-! ## The pointwise step -/

/-- The next current: the decayed current plus the two drives, added in this order. -/
theorem pay5_apply (v26 v29 v31 : Vec Ideal S512x512 .f32) (p q : Fin 512) :
    k0_pay5 (F := Ideal) v26 v29 v31 (ix2 p q)
      = (Spec.decayI * v26 (ix2 p q) + v29 (ix2 p q)) + v31 (ix2 p q) := rfl

/-- The next potential: the decayed potential plus the next current, times one minus the spike. -/
theorem pay6_apply (v26 v29 v31 v33 v36 : Vec Ideal S512x512 .f32) (p q : Fin 512) :
    k0_pay6 (F := Ideal) v26 v29 v31 v33 v36 (ix2 p q)
      = (Spec.decayV * v36 (ix2 p q) + k0_pay5 (F := Ideal) v26 v29 v31 (ix2 p q)) * (Spec.one - v33 (ix2 p q)) := rfl

/-- One bit widened with zeros to a 32-bit word and read as a signed integer is the bit as a number: the word is 0 or 1. -/
theorem toInt_setWidth_bit (b : BitVec 1) : (((b.setWidth 32).toInt : ℝ) : EReal) = ((b.toNat : ℝ) : EReal) := by
  have h : (b.setWidth 32).toInt = (b.toNat : ℤ) := by
    revert b
    decide
  rw [h, Int.cast_natCast]

/-- The next spike: the threshold comparison's bit, read as a number. -/
theorem pay7_apply (v26 v29 v31 v33 v36 : Vec Ideal S512x512 .f32) (p q : Fin 512) :
    k0_pay7 (F := Ideal) v26 v29 v31 v33 v36 (ix2 p q)
      = (((Ideal.cmp .ogt (k0_pay6 (F := Ideal) v26 v29 v31 v33 v36 (ix2 p q) - Spec.one) Spec.zero).toNat : ℝ) : EReal) :=
  toInt_setWidth_bit _

end Cert.Lif.Payloads

end
-- ==== Proof.KI.Unroll.lean ====
/-
  The accumulators at a last-slice point, on the extended reals: with the point at position 4b + 3, the first accumulator's
  entry (p, q) is  (((0 + P(4b)) + P(4b+1)) + P(4b+2)) + P(4b+3),  where P(s) is the 512-term product of row p of the inputs'
  block at s with column q of the forward weights' block at s; the second accumulator's likewise with the spikes' and the
  recurrent weights' blocks. Each point adds one slice to what the point before left; the point with k = 0 starts from zero.
-/
import proofs.«140393_j64424509440615_1_alg».proof.Proof.KI.Pieces
import proofs.«140393_j64424509440615_1_alg».proof.Proof.Payloads

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Lif

variable (m : (ℓ : Loc nD τ sig) → Buf (Elt Ideal) ℓ)

/-- The accumulators at a position do not depend on how the position is written. -/
theorem sAt_congr (c : Dev nD) {n n' : ℕ} (e : n = n') (h : n < cfg0.N) (h' : n' < cfg0.N) : sAt m c n h = sAt m c n' h' := by
  subst e; rfl

/-- One slice of the forward product at point `s`: row p of the inputs' block times column q of the forward weights' block. -/
def part0 (c : Dev nD) (s : Fin cfg0.N) (p q : Fin 512) : EReal :=
  let a : Vec Ideal S512x512 .f32 := iblk m c 0 s
  let w : Vec Ideal S512x512 .f32 := iblk m c 1 s
  ∑ k : Fin 512, a (ix2 p k) * w (ix2 k q)
/-- One slice of the recurrent product at point `s`. -/
def part1 (c : Dev nD) (s : Fin cfg0.N) (p q : Fin 512) : EReal :=
  let a : Vec Ideal S512x512 .f32 := iblk m c 2 s
  let w : Vec Ideal S512x512 .f32 := iblk m c 3 s
  ∑ k : Fin 512, a (ix2 p k) * w (ix2 k q)

/-- After the four points 4b … 4b+3 the accumulators hold the four slices added from zero, in order. -/
theorem acc_unroll (c : Dev nD) (b : ℕ) (h0 : 4 * b < cfg0.N) (h1 : 4 * b + 1 < cfg0.N) (h2 : 4 * b + 2 < cfg0.N) (h3 : 4 * b + 3 < cfg0.N) (p q : Fin 512) :
    (sAt m c (4 * b + 3) h3).1 (ix2 p q)
        = ((((0 : EReal) + part0 m c ⟨4 * b, h0⟩ p q) + part0 m c ⟨4 * b + 1, h1⟩ p q) + part0 m c ⟨4 * b + 2, h2⟩ p q) + part0 m c ⟨4 * b + 3, h3⟩ p q
    ∧ (sAt m c (4 * b + 3) h3).2 (ix2 p q)
        = ((((0 : EReal) + part1 m c ⟨4 * b, h0⟩ p q) + part1 m c ⟨4 * b + 1, h1⟩ p q) + part1 m c ⟨4 * b + 2, h2⟩ p q) + part1 m c ⟨4 * b + 3, h3⟩ p q := by
  have e3 := sAt_C m c ⟨4 * b + 3, h3⟩ (by show ¬((4 * b + 3) % 4 = 0); omega) (by show (4 * b + 3) % 4 = 3; omega)
  have e2 := sAt_B m c ⟨4 * b + 2, h2⟩ (by show ¬((4 * b + 2) % 4 = 0); omega) (by show ¬((4 * b + 2) % 4 = 3); omega)
  have e1 := sAt_B m c ⟨4 * b + 1, h1⟩ (by show ¬((4 * b + 1) % 4 = 0); omega) (by show ¬((4 * b + 1) % 4 = 3); omega)
  have e0 := sAt_A m c ⟨4 * b, h0⟩ (by show (4 * b) % 4 = 0; omega) (by show ¬((4 * b) % 4 = 3); omega)
  dsimp only at e3 e2 e1 e0
  rw [sAt_congr m c (show 4 * b + 3 - 1 = 4 * b + 2 by omega) _ h2, sC_eq] at e3
  rw [sAt_congr m c (show 4 * b + 2 - 1 = 4 * b + 1 by omega) _ h1, sB_eq] at e2
  rw [sAt_congr m c (show 4 * b + 1 - 1 = 4 * b by omega) _ h0, sB_eq] at e1
  rw [sA_eq] at e0
  rw [e3, e2, e1, e0]
  dsimp only
  refine ⟨?_, ?_⟩
  · rw [Payloads.pay3_apply, Payloads.pay3_apply, Payloads.pay3_apply, Payloads.pay3_apply, Payloads.pay1_apply]
    rfl
  · rw [Payloads.pay4_apply, Payloads.pay4_apply, Payloads.pay4_apply, Payloads.pay4_apply, Payloads.pay2_apply]
    rfl

end Cert.KernelIdeal.Fr

end
-- ==== Proof.KI.Blocks.lean ====
/-
  The index arithmetic of the pipelined kernel: where each window's block sits in its array.

  The grid has 8 × 4 × 4 points (i, j, k), k innermost; the point at position t has (i, j, k) = (t / 16, t / 4 % 4, t % 4).
  Every block is 512 × 512. The inputs and the spikes as the recurrent product's left factor are cut by block index
  (i, k), the two weight matrices by (k, j), and the spikes read pointwise, the synaptic current, the membrane potential
  and the three results by (i, j). Entry (p, q) of the block with block index (a, b) is entry (512 a + p, 512 b + q) of
  the array. The result blocks are written back where k = 3, and those 32 blocks tile the 4096 × 2048 result arrays.
-/
import proofs.«140393_j64424509440615_1_alg».proof.Proof.KI.Setup
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The index maps in closed form

  A point's position t has coordinates (i, j, k) = (t / 16, t / 4 % 4, t % 4). -/

/-- Window 0 (the inputs): block (i, k). -/
theorem idx0_0 : ∀ t : Fin cfg0.N, win0_0.index t (0 : Fin 2) = t.val / 16 ∧ win0_0.index t (1 : Fin 2) = t.val % 4 :=
  (by decide +kernel : ∀ t : Fin grid0.N, _)
/-- Window 1 (the forward weights): block (k, j). -/
theorem idx0_1 : ∀ t : Fin cfg0.N, win0_1.index t (0 : Fin 2) = t.val % 4 ∧ win0_1.index t (1 : Fin 2) = t.val / 4 % 4 :=
  (by decide +kernel : ∀ t : Fin grid0.N, _)
/-- Window 2 (the spikes as the recurrent product's left factor): block (i, k). -/
theorem idx0_2 : ∀ t : Fin cfg0.N, win0_2.index t (0 : Fin 2) = t.val / 16 ∧ win0_2.index t (1 : Fin 2) = t.val % 4 :=
  (by decide +kernel : ∀ t : Fin grid0.N, _)
/-- Window 3 (the recurrent weights): block (k, j). -/
theorem idx0_3 : ∀ t : Fin cfg0.N, win0_3.index t (0 : Fin 2) = t.val % 4 ∧ win0_3.index t (1 : Fin 2) = t.val / 4 % 4 :=
  (by decide +kernel : ∀ t : Fin grid0.N, _)
/-- Window 4 (the spikes read pointwise): block (i, j). -/
theorem idx0_4 : ∀ t : Fin cfg0.N, win0_4.index t (0 : Fin 2) = t.val / 16 ∧ win0_4.index t (1 : Fin 2) = t.val / 4 % 4 :=
  (by decide +kernel : ∀ t : Fin grid0.N, _)
/-- Window 5 (the synaptic current): block (i, j). -/
theorem idx0_5 : ∀ t : Fin cfg0.N, win0_5.index t (0 : Fin 2) = t.val / 16 ∧ win0_5.index t (1 : Fin 2) = t.val / 4 % 4 :=
  (by decide +kernel : ∀ t : Fin grid0.N, _)
/-- Window 6 (the membrane potential): block (i, j). -/
theorem idx0_6 : ∀ t : Fin cfg0.N, win0_6.index t (0 : Fin 2) = t.val / 16 ∧ win0_6.index t (1 : Fin 2) = t.val / 4 % 4 :=
  (by decide +kernel : ∀ t : Fin grid0.N, _)
/-- Window 7 (the first result): block (i, j). -/
theorem idx0_7 : ∀ t : Fin cfg0.N, win0_7.index t (0 : Fin 2) = t.val / 16 ∧ win0_7.index t (1 : Fin 2) = t.val / 4 % 4 :=
  (by decide +kernel : ∀ t : Fin grid0.N, _)
/-- Window 8 (the second result): block (i, j). -/
theorem idx0_8 : ∀ t : Fin cfg0.N, win0_8.index t (0 : Fin 2) = t.val / 16 ∧ win0_8.index t (1 : Fin 2) = t.val / 4 % 4 :=
  (by decide +kernel : ∀ t : Fin grid0.N, _)
/-- Window 9 (the third result): block (i, j). -/
theorem idx0_9 : ∀ t : Fin cfg0.N, win0_9.index t (0 : Fin 2) = t.val / 16 ∧ win0_9.index t (1 : Fin 2) = t.val / 4 % 4 :=
  (by decide +kernel : ∀ t : Fin grid0.N, _)

/-! ## The input blocks, entry by entry

  Entry (p, q) of a 512 × 512 block with block index (a, b) is entry (512 a + p, 512 b + q) of its array. -/

/-- Input window 0 (the inputs' block (i, k)): entry (p, q) of the block at point t, as an entry of the array. -/
theorem iblk0_apply (c : Dev nD) (t : Fin cfg0.N) (p q : Fin 512) (hr : 512 * (t.val / 16) + p.val < 4096)
    (hc : 512 * (t.val % 4) + q.val < 2048) :
    iblk m c 0 t (ix2 p q) = V m c main_arg0 (ix2 ⟨512 * (t.val / 16) + p.val, hr⟩ ⟨512 * (t.val % 4) + q.val, hc⟩) := by
  unfold iblk
  rw [View.read_apply]
  show V m c main_arg0 (((cfg0.win 0).blk t).view.emb (ix2 p q)) = _
  refine congrArg _ ?_
  obtain ⟨e0, e1⟩ := idx0_0 t
  funext a; apply Fin.ext
  match a with
  | ⟨0, _⟩ => show win0_0.index t (0 : Fin 2) * 512 + 1 * p.val = 512 * (t.val / 16) + p.val; omega
  | ⟨1, _⟩ => show win0_0.index t (1 : Fin 2) * 512 + 1 * q.val = 512 * (t.val % 4) + q.val; omega

/-- Input window 1 (the forward weights' block (k, j)): entry (p, q) of the block at point t, as an entry of the array. -/
theorem iblk1_apply (c : Dev nD) (t : Fin cfg0.N) (p q : Fin 512) (hr : 512 * (t.val % 4) + p.val < 2048)
    (hc : 512 * (t.val / 4 % 4) + q.val < 2048) :
    iblk m c 1 t (ix2 p q) = V m c main_arg4 (ix2 ⟨512 * (t.val % 4) + p.val, hr⟩ ⟨512 * (t.val / 4 % 4) + q.val, hc⟩) := by
  unfold iblk
  rw [View.read_apply]
  show V m c main_arg4 (((cfg0.win 1).blk t).view.emb (ix2 p q)) = _
  refine congrArg _ ?_
  obtain ⟨e0, e1⟩ := idx0_1 t
  funext a; apply Fin.ext
  match a with
  | ⟨0, _⟩ => show win0_1.index t (0 : Fin 2) * 512 + 1 * p.val = 512 * (t.val % 4) + p.val; omega
  | ⟨1, _⟩ => show win0_1.index t (1 : Fin 2) * 512 + 1 * q.val = 512 * (t.val / 4 % 4) + q.val; omega

/-- Input window 2 (the spikes' block (i, k)): entry (p, q) of the block at point t, as an entry of the array. -/
theorem iblk2_apply (c : Dev nD) (t : Fin cfg0.N) (p q : Fin 512) (hr : 512 * (t.val / 16) + p.val < 4096)
    (hc : 512 * (t.val % 4) + q.val < 2048) :
    iblk m c 2 t (ix2 p q) = V m c main_arg3 (ix2 ⟨512 * (t.val / 16) + p.val, hr⟩ ⟨512 * (t.val % 4) + q.val, hc⟩) := by
  unfold iblk
  rw [View.read_apply]
  show V m c main_arg3 (((cfg0.win 2).blk t).view.emb (ix2 p q)) = _
  refine congrArg _ ?_
  obtain ⟨e0, e1⟩ := idx0_2 t
  funext a; apply Fin.ext
  match a with
  | ⟨0, _⟩ => show win0_2.index t (0 : Fin 2) * 512 + 1 * p.val = 512 * (t.val / 16) + p.val; omega
  | ⟨1, _⟩ => show win0_2.index t (1 : Fin 2) * 512 + 1 * q.val = 512 * (t.val % 4) + q.val; omega

/-- Input window 3 (the recurrent weights' block (k, j)): entry (p, q) of the block at point t, as an entry of the array. -/
theorem iblk3_apply (c : Dev nD) (t : Fin cfg0.N) (p q : Fin 512) (hr : 512 * (t.val % 4) + p.val < 2048)
    (hc : 512 * (t.val / 4 % 4) + q.val < 2048) :
    iblk m c 3 t (ix2 p q) = V m c main_arg5 (ix2 ⟨512 * (t.val % 4) + p.val, hr⟩ ⟨512 * (t.val / 4 % 4) + q.val, hc⟩) := by
  unfold iblk
  rw [View.read_apply]
  show V m c main_arg5 (((cfg0.win 3).blk t).view.emb (ix2 p q)) = _
  refine congrArg _ ?_
  obtain ⟨e0, e1⟩ := idx0_3 t
  funext a; apply Fin.ext
  match a with
  | ⟨0, _⟩ => show win0_3.index t (0 : Fin 2) * 512 + 1 * p.val = 512 * (t.val % 4) + p.val; omega
  | ⟨1, _⟩ => show win0_3.index t (1 : Fin 2) * 512 + 1 * q.val = 512 * (t.val / 4 % 4) + q.val; omega

/-- Input window 4 (the spikes' block (i, j)): entry (p, q) of the block at point t, as an entry of the array. -/
theorem iblk4_apply (c : Dev nD) (t : Fin cfg0.N) (p q : Fin 512) (hr : 512 * (t.val / 16) + p.val < 4096)
    (hc : 512 * (t.val / 4 % 4) + q.val < 2048) :
    iblk m c 4 t (ix2 p q) = V m c main_arg3 (ix2 ⟨512 * (t.val / 16) + p.val, hr⟩ ⟨512 * (t.val / 4 % 4) + q.val, hc⟩) := by
  unfold iblk
  rw [View.read_apply]
  show V m c main_arg3 (((cfg0.win 4).blk t).view.emb (ix2 p q)) = _
  refine congrArg _ ?_
  obtain ⟨e0, e1⟩ := idx0_4 t
  funext a; apply Fin.ext
  match a with
  | ⟨0, _⟩ => show win0_4.index t (0 : Fin 2) * 512 + 1 * p.val = 512 * (t.val / 16) + p.val; omega
  | ⟨1, _⟩ => show win0_4.index t (1 : Fin 2) * 512 + 1 * q.val = 512 * (t.val / 4 % 4) + q.val; omega

/-- Input window 5 (the synaptic current's block (i, j)): entry (p, q) of the block at point t, as an entry of the array. -/
theorem iblk5_apply (c : Dev nD) (t : Fin cfg0.N) (p q : Fin 512) (hr : 512 * (t.val / 16) + p.val < 4096)
    (hc : 512 * (t.val / 4 % 4) + q.val < 2048) :
    iblk m c 5 t (ix2 p q) = V m c main_arg1 (ix2 ⟨512 * (t.val / 16) + p.val, hr⟩ ⟨512 * (t.val / 4 % 4) + q.val, hc⟩) := by
  unfold iblk
  rw [View.read_apply]
  show V m c main_arg1 (((cfg0.win 5).blk t).view.emb (ix2 p q)) = _
  refine congrArg _ ?_
  obtain ⟨e0, e1⟩ := idx0_5 t
  funext a; apply Fin.ext
  match a with
  | ⟨0, _⟩ => show win0_5.index t (0 : Fin 2) * 512 + 1 * p.val = 512 * (t.val / 16) + p.val; omega
  | ⟨1, _⟩ => show win0_5.index t (1 : Fin 2) * 512 + 1 * q.val = 512 * (t.val / 4 % 4) + q.val; omega

/-- Input window 6 (the membrane potential's block (i, j)): entry (p, q) of the block at point t, as an entry of the array. -/
theorem iblk6_apply (c : Dev nD) (t : Fin cfg0.N) (p q : Fin 512) (hr : 512 * (t.val / 16) + p.val < 4096)
    (hc : 512 * (t.val / 4 % 4) + q.val < 2048) :
    iblk m c 6 t (ix2 p q) = V m c main_arg2 (ix2 ⟨512 * (t.val / 16) + p.val, hr⟩ ⟨512 * (t.val / 4 % 4) + q.val, hc⟩) := by
  unfold iblk
  rw [View.read_apply]
  show V m c main_arg2 (((cfg0.win 6).blk t).view.emb (ix2 p q)) = _
  refine congrArg _ ?_
  obtain ⟨e0, e1⟩ := idx0_6 t
  funext a; apply Fin.ext
  match a with
  | ⟨0, _⟩ => show win0_6.index t (0 : Fin 2) * 512 + 1 * p.val = 512 * (t.val / 16) + p.val; omega
  | ⟨1, _⟩ => show win0_6.index t (1 : Fin 2) * 512 + 1 * q.val = 512 * (t.val / 4 % 4) + q.val; omega

/-! ## The result blocks: where an entry sits, and the cover

  The result blocks (i, j) are written back at the points with k = 3; the 8 × 4 of them tile the 4096 × 2048 array:
  entry (r, s) is in the block of the point 16 (r / 512) + 4 (s / 512) + 3. -/

/-- Result window 7 (the first result): entry (p, q) of the block at point t sits at (512 i + p, 512 j + q) of the array. -/
theorem emb0_7 (t : Fin cfg0.N) (p q : Fin 512) (hr : 512 * (t.val / 16) + p.val < 4096)
    (hc : 512 * (t.val / 4 % 4) + q.val < 2048) :
    ((cfg0.win 7).blk t).view.emb (ix2 p q)
      = ix2 ⟨512 * (t.val / 16) + p.val, hr⟩ ⟨512 * (t.val / 4 % 4) + q.val, hc⟩ := by
  obtain ⟨e0, e1⟩ := idx0_7 t
  funext a; apply Fin.ext
  match a with
  | ⟨0, _⟩ => show win0_7.index t (0 : Fin 2) * 512 + 1 * p.val = 512 * (t.val / 16) + p.val; omega
  | ⟨1, _⟩ => show win0_7.index t (1 : Fin 2) * 512 + 1 * q.val = 512 * (t.val / 4 % 4) + q.val; omega

/-- An index of the array is in point t's block of window 7 iff each coordinate is in the block's range on its axis. -/
theorem mem_blk0_7 (t : Fin cfg0.N) (i : S4096x2048.Idx) :
    i ∈ ((cfg0.win 7).blk t).view.set
      ↔ ∀ a : Fin 2, win0_7.index t a * S512x512.size a ≤ (i a).val
          ∧ (i a).val < win0_7.index t a * S512x512.size a + S512x512.size a := by
  show i ∈ ((View.whole main_v0_0).slice (win0_7.rect t)).set ↔ _
  rw [View.set_slice_whole, Rect.mem_set_unit]
  exact Iff.rfl

/-- Every index of window 7's array is in the block of some point that writes its block back. -/
theorem cover0_7_idx (i : S4096x2048.Idx) :
    ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ : ∃ t : Fin cfg0.N, t.val = 16 * ((i 0).val / 512) + 4 * ((i 1).val / 512) + 3 :=
    ⟨⟨16 * ((i 0).val / 512) + 4 * ((i 1).val / 512) + 3, lt_of_lt_of_eq (by omega) N_0.symm⟩, rfl⟩
  obtain ⟨e0, e1⟩ := idx0_7 t
  refine ⟨t, (flush0_7 t).mpr (by omega), ?_⟩
  rw [mem_blk0_7]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 512 ≤ (i 1).val ∧ (i 1).val < win0_7.index t (1 : Fin 2) * 512 + 512
    omega

/-- The same over the array's index type as the pipeline's data names it. -/
theorem cover0_7 (c : Dev nD) :
    ∀ i : ((cfg0.win 7).arr.view.loc (c.tc : Thread nD τ)).2.ty.Idx,
      ∃ t : Fin cfg0.N, (cfg0.win 7).flush t = true ∧ i ∈ ((cfg0.win 7).blk t).view.set :=
  fun i => cover0_7_idx i

/-- Result window 8 (the second result): entry (p, q) of the block at point t sits at (512 i + p, 512 j + q) of the array. -/
theorem emb0_8 (t : Fin cfg0.N) (p q : Fin 512) (hr : 512 * (t.val / 16) + p.val < 4096)
    (hc : 512 * (t.val / 4 % 4) + q.val < 2048) :
    ((cfg0.win 8).blk t).view.emb (ix2 p q)
      = ix2 ⟨512 * (t.val / 16) + p.val, hr⟩ ⟨512 * (t.val / 4 % 4) + q.val, hc⟩ := by
  obtain ⟨e0, e1⟩ := idx0_8 t
  funext a; apply Fin.ext
  match a with
  | ⟨0, _⟩ => show win0_8.index t (0 : Fin 2) * 512 + 1 * p.val = 512 * (t.val / 16) + p.val; omega
  | ⟨1, _⟩ => show win0_8.index t (1 : Fin 2) * 512 + 1 * q.val = 512 * (t.val / 4 % 4) + q.val; omega

/-- An index of the array is in point t's block of window 8 iff each coordinate is in the block's range on its axis. -/
theorem mem_blk0_8 (t : Fin cfg0.N) (i : S4096x2048.Idx) :
    i ∈ ((cfg0.win 8).blk t).view.set
      ↔ ∀ a : Fin 2, win0_8.index t a * S512x512.size a ≤ (i a).val
          ∧ (i a).val < win0_8.index t a * S512x512.size a + S512x512.size a := by
  show i ∈ ((View.whole main_v0_1).slice (win0_8.rect t)).set ↔ _
  rw [View.set_slice_whole, Rect.mem_set_unit]
  exact Iff.rfl

/-- Every index of window 8's array is in the block of some point that writes its block back. -/
theorem cover0_8_idx (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ : ∃ t : Fin cfg0.N, t.val = 16 * ((i 0).val / 512) + 4 * ((i 1).val / 512) + 3 :=
    ⟨⟨16 * ((i 0).val / 512) + 4 * ((i 1).val / 512) + 3, lt_of_lt_of_eq (by omega) N_0.symm⟩, rfl⟩
  obtain ⟨e0, e1⟩ := idx0_8 t
  refine ⟨t, (flush0_8 t).mpr (by omega), ?_⟩
  rw [mem_blk0_8]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 512 ≤ (i 1).val ∧ (i 1).val < win0_8.index t (1 : Fin 2) * 512 + 512
    omega

/-- The same over the array's index type as the pipeline's data names it. -/
theorem cover0_8 (c : Dev nD) :
    ∀ i : ((cfg0.win 8).arr.view.loc (c.tc : Thread nD τ)).2.ty.Idx,
      ∃ t : Fin cfg0.N, (cfg0.win 8).flush t = true ∧ i ∈ ((cfg0.win 8).blk t).view.set :=
  fun i => cover0_8_idx i

/-- Result window 9 (the third result): entry (p, q) of the block at point t sits at (512 i + p, 512 j + q) of the array. -/
theorem emb0_9 (t : Fin cfg0.N) (p q : Fin 512) (hr : 512 * (t.val / 16) + p.val < 4096)
    (hc : 512 * (t.val / 4 % 4) + q.val < 2048) :
    ((cfg0.win 9).blk t).view.emb (ix2 p q)
      = ix2 ⟨512 * (t.val / 16) + p.val, hr⟩ ⟨512 * (t.val / 4 % 4) + q.val, hc⟩ := by
  obtain ⟨e0, e1⟩ := idx0_9 t
  funext a; apply Fin.ext
  match a with
  | ⟨0, _⟩ => show win0_9.index t (0 : Fin 2) * 512 + 1 * p.val = 512 * (t.val / 16) + p.val; omega
  | ⟨1, _⟩ => show win0_9.index t (1 : Fin 2) * 512 + 1 * q.val = 512 * (t.val / 4 % 4) + q.val; omega

/-- An index of the array is in point t's block of window 9 iff each coordinate is in the block's range on its axis. -/
theorem mem_blk0_9 (t : Fin cfg0.N) (i : S4096x2048.Idx) :
    i ∈ ((cfg0.win 9).blk t).view.set
      ↔ ∀ a : Fin 2, win0_9.index t a * S512x512.size a ≤ (i a).val
          ∧ (i a).val < win0_9.index t a * S512x512.size a + S512x512.size a := by
  show i ∈ ((View.whole main_v0_2).slice (win0_9.rect t)).set ↔ _
  rw [View.set_slice_whole, Rect.mem_set_unit]
  exact Iff.rfl

/-- Every index of window 9's array is in the block of some point that writes its block back. -/
theorem cover0_9_idx (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  obtain ⟨t, ht⟩ : ∃ t : Fin cfg0.N, t.val = 16 * ((i 0).val / 512) + 4 * ((i 1).val / 512) + 3 :=
    ⟨⟨16 * ((i 0).val / 512) + 4 * ((i 1).val / 512) + 3, lt_of_lt_of_eq (by omega) N_0.symm⟩, rfl⟩
  obtain ⟨e0, e1⟩ := idx0_9 t
  refine ⟨t, (flush0_9 t).mpr (by omega), ?_⟩
  rw [mem_blk0_9]
  intro a
  match a with
  | ⟨0, _⟩ =>
    show win0_9.index t (0 : Fin 2) * 512 ≤ (i 0).val ∧ (i 0).val < win0_9.index t (0 : Fin 2) * 512 + 512
    omega
  | ⟨1, _⟩ =>
    show win0_9.index t (1 : Fin 2) * 512 ≤ (i 1).val ∧ (i 1).val < win0_9.index t (1 : Fin 2) * 512 + 512
    omega

/-- The same over the array's index type as the pipeline's data names it. -/
theorem cover0_9 (c : Dev nD) :
    ∀ i : ((cfg0.win 9).arr.view.loc (c.tc : Thread nD τ)).2.ty.Idx,
      ∃ t : Fin cfg0.N, (cfg0.win 9).flush t = true ∧ i ∈ ((cfg0.win 9).blk t).view.set :=
  fun i => cover0_9_idx i

end Cert.KernelIdeal.Fr

end
-- ==== Proof.LibBlockedSum.lean ====
/-
  The one algebraic law of this kernel: a sum over 2048 terms equals the four partial sums over its consecutive
  512-term blocks, accumulated from zero in order.

  Only commutativity, associativity and the neutrality of zero are used, so the law is first stated over an
  arbitrary additive commutative monoid and then read on the extended reals; no finiteness hypothesis appears.
-/
import Mathlib.Algebra.BigOperators.Fin
import Mathlib.Data.EReal.Operations

namespace Cert.Lif

open Finset

/-- A sum over m + n terms is the sum over the first m terms plus the sum over the last n, the indices written
    out as naturals. -/
theorem sum_split {M : Type*} [AddCommMonoid M] (m n N : ℕ) (h : m + n = N) (f : Fin N → M) :
    ∑ k : Fin N, f k
      = ∑ k : Fin m, f ⟨k.val, by omega⟩ + ∑ k : Fin n, f ⟨m + k.val, by omega⟩ := by
  subst h
  exact Fin.sum_univ_add f

/-- Over any additive commutative monoid: the four block sums of a 2048-term sum, accumulated from zero in
    order, give the whole sum. -/
theorem sum_four_blocks_monoid {M : Type*} [AddCommMonoid M] (f : Fin 2048 → M) :
    ((((0 : M) + ∑ k : Fin 512, f ⟨k.val, by omega⟩) + ∑ k : Fin 512, f ⟨512 + k.val, by omega⟩)
        + ∑ k : Fin 512, f ⟨1024 + k.val, by omega⟩) + ∑ k : Fin 512, f ⟨1536 + k.val, by omega⟩
      = ∑ k : Fin 2048, f k := by
  rw [sum_split 1536 512 2048 rfl f,
    sum_split 1024 512 1536 rfl (fun k : Fin 1536 => f ⟨k.val, by omega⟩),
    sum_split 512 512 1024 rfl (fun k : Fin 1024 => f ⟨k.val, by omega⟩), zero_add]

/-- On the extended reals: the four block sums of a 2048-term sum, accumulated from zero in order, give the
    whole sum. -/
theorem sum_four_blocks (f : Fin 2048 → EReal) :
    ((((0 : EReal) + ∑ k : Fin 512, f ⟨k.val, by omega⟩) + ∑ k : Fin 512, f ⟨512 + k.val, by omega⟩)
        + ∑ k : Fin 512, f ⟨1024 + k.val, by omega⟩) + ∑ k : Fin 512, f ⟨1536 + k.val, by omega⟩
      = ∑ k : Fin 2048, f k :=
  sum_four_blocks_monoid f

end Cert.Lif
-- ==== Proof.KI.Final.lean ====
/-
  The three result arrays after the run, on the extended reals: the next current, the next potential and the next spikes
  of the specification, as functions of the six argument arrays.

  A result block (i, j) is written back once, at the point (i, j, 3). What is stored there is computed from the two
  accumulators, which by then hold the four 512-term slices of row 512 i + p times column 512 j + q, added from zero in
  order: together the whole 2048-term products. The pointwise inputs' blocks at that point are the arrays' entries at
  (512 i + p, 512 j + q). The blocks (i, j) tile each result array.
-/
import proofs.«140393_j64424509440615_1_alg».proof.Proof.KI.Launch
import proofs.«140393_j64424509440615_1_alg».proof.Proof.KI.Unroll
import proofs.«140393_j64424509440615_1_alg».proof.Proof.KI.Blocks
import proofs.«140393_j64424509440615_1_alg».proof.Proof.LibBlockedSum
import proofs.«140393_j64424509440615_1_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Lif

variable (m : (ℓ : Loc nD τ sig) → Buf (Elt Ideal) ℓ)

/-! ## The six argument arrays, as functions into the extended reals -/

/-- The inputs, the current, the potential and the spikes of core `c` at launch (4096 × 2048), and the forward and recurrent weights (2048 × 2048). -/
abbrev aX (c : Dev nD) : Spec.SAct.Idx → EReal := V m c main_arg0
abbrev aI (c : Dev nD) : Spec.SAct.Idx → EReal := V m c main_arg1
abbrev aV (c : Dev nD) : Spec.SAct.Idx → EReal := V m c main_arg2
abbrev aZ (c : Dev nD) : Spec.SAct.Idx → EReal := V m c main_arg3
abbrev aF (c : Dev nD) : Spec.SWgt.Idx → EReal := V m c main_arg4
abbrev aR (c : Dev nD) : Spec.SWgt.Idx → EReal := V m c main_arg5

/-! ## One slice as a stretch of the whole sum -/

/-- The forward slice at position 4b + k' (k' < 4), entry (p, q): the terms 512 k' … 512 k' + 511 of row 512 (b / 4) + p of the inputs
    times column 512 (b % 4) + q of the forward weights (`idx` names those 512 positions of the shared axis). -/
theorem part0_eq (c : Dev nD) (b k' : ℕ) (hk : k' < 4) (hs : 4 * b + k' < cfg0.N) (p q : Fin 512)
    (hr : 512 * (b / 4) + p.val < 4096) (hc : 512 * (b % 4) + q.val < 2048)
    (idx : Fin 512 → Fin 2048) (hidx : ∀ kk, (idx kk).val = 512 * k' + kk.val) :
    part0 m c ⟨4 * b + k', hs⟩ p q
      = ∑ kk : Fin 512, aX m c (ix2 ⟨512 * (b / 4) + p.val, hr⟩ (idx kk)) * aF m c (ix2 (idx kk) ⟨512 * (b % 4) + q.val, hc⟩) := by
  have hN : cfg0.N = 128 := N_0
  dsimp only [part0]
  refine Finset.sum_congr rfl fun kk _ => ?_
  have hkk := kk.isLt
  have a1 : 512 * ((4 * b + k') / 16) + p.val < 4096 := by omega
  have a2 : 512 * ((4 * b + k') % 4) + kk.val < 2048 := by omega
  have a3 : 512 * ((4 * b + k') / 4 % 4) + q.val < 2048 := by omega
  rw [iblk0_apply m c ⟨4 * b + k', hs⟩ p kk a1 a2, iblk1_apply m c ⟨4 * b + k', hs⟩ kk q a2 a3]
  (try dsimp only)
  have e1 : (⟨512 * ((4 * b + k') / 16) + p.val, a1⟩ : Fin 4096) = ⟨512 * (b / 4) + p.val, hr⟩ := Fin.ext (by show 512 * ((4 * b + k') / 16) + p.val = 512 * (b / 4) + p.val; omega)
  have e2 : (⟨512 * ((4 * b + k') % 4) + kk.val, a2⟩ : Fin 2048) = idx kk := Fin.ext (by rw [hidx]; show 512 * ((4 * b + k') % 4) + kk.val = 512 * k' + kk.val; omega)
  have e3 : (⟨512 * ((4 * b + k') / 4 % 4) + q.val, a3⟩ : Fin 2048) = ⟨512 * (b % 4) + q.val, hc⟩ := Fin.ext (by show 512 * ((4 * b + k') / 4 % 4) + q.val = 512 * (b % 4) + q.val; omega)
  rw [e1, e2, e3]

/-- The recurrent slice likewise, with the spikes and the recurrent weights. -/
theorem part1_eq (c : Dev nD) (b k' : ℕ) (hk : k' < 4) (hs : 4 * b + k' < cfg0.N) (p q : Fin 512)
    (hr : 512 * (b / 4) + p.val < 4096) (hc : 512 * (b % 4) + q.val < 2048)
    (idx : Fin 512 → Fin 2048) (hidx : ∀ kk, (idx kk).val = 512 * k' + kk.val) :
    part1 m c ⟨4 * b + k', hs⟩ p q
      = ∑ kk : Fin 512, aZ m c (ix2 ⟨512 * (b / 4) + p.val, hr⟩ (idx kk)) * aR m c (ix2 (idx kk) ⟨512 * (b % 4) + q.val, hc⟩) := by
  have hN : cfg0.N = 128 := N_0
  dsimp only [part1]
  refine Finset.sum_congr rfl fun kk _ => ?_
  have hkk := kk.isLt
  have a1 : 512 * ((4 * b + k') / 16) + p.val < 4096 := by omega
  have a2 : 512 * ((4 * b + k') % 4) + kk.val < 2048 := by omega
  have a3 : 512 * ((4 * b + k') / 4 % 4) + q.val < 2048 := by omega
  rw [iblk2_apply m c ⟨4 * b + k', hs⟩ p kk a1 a2, iblk3_apply m c ⟨4 * b + k', hs⟩ kk q a2 a3]
  (try dsimp only)
  have e1 : (⟨512 * ((4 * b + k') / 16) + p.val, a1⟩ : Fin 4096) = ⟨512 * (b / 4) + p.val, hr⟩ := Fin.ext (by show 512 * ((4 * b + k') / 16) + p.val = 512 * (b / 4) + p.val; omega)
  have e2 : (⟨512 * ((4 * b + k') % 4) + kk.val, a2⟩ : Fin 2048) = idx kk := Fin.ext (by rw [hidx]; show 512 * ((4 * b + k') % 4) + kk.val = 512 * k' + kk.val; omega)
  have e3 : (⟨512 * ((4 * b + k') / 4 % 4) + q.val, a3⟩ : Fin 2048) = ⟨512 * (b % 4) + q.val, hc⟩ := Fin.ext (by show 512 * ((4 * b + k') / 4 % 4) + q.val = 512 * (b % 4) + q.val; omega)
  rw [e1, e2, e3]

/-! ## Four slices are the whole product -/

/-- The four forward slices added from zero are entry (512 (b / 4) + p, 512 (b % 4) + q) of inputs · forward weights. -/
theorem dot0_unroll (c : Dev nD) (b : ℕ) (h0 : 4 * b < cfg0.N) (h1 : 4 * b + 1 < cfg0.N) (h2 : 4 * b + 2 < cfg0.N) (h3 : 4 * b + 3 < cfg0.N) (p q : Fin 512)
    (hr : 512 * (b / 4) + p.val < 4096) (hc : 512 * (b % 4) + q.val < 2048) :
    ((((0 : EReal) + part0 m c ⟨4 * b, h0⟩ p q) + part0 m c ⟨4 * b + 1, h1⟩ p q) + part0 m c ⟨4 * b + 2, h2⟩ p q) + part0 m c ⟨4 * b + 3, h3⟩ p q
      = Spec.dotAt (aX m c) (aF m c) (ix2 ⟨512 * (b / 4) + p.val, hr⟩ ⟨512 * (b % 4) + q.val, hc⟩) := by
  have e0 : part0 m c ⟨4 * b, h0⟩ p q = _ := part0_eq m c b 0 (by omega) h0 p q hr hc (fun k => ⟨k.val, by omega⟩) (fun kk => by show kk.val = 512 * 0 + kk.val; omega)
  have e1 := part0_eq m c b 1 (by omega) h1 p q hr hc (fun k => ⟨512 + k.val, by omega⟩) (fun kk => by show 512 + kk.val = 512 * 1 + kk.val; omega)
  have e2 := part0_eq m c b 2 (by omega) h2 p q hr hc (fun k => ⟨1024 + k.val, by omega⟩) (fun kk => by show 1024 + kk.val = 512 * 2 + kk.val; omega)
  have e3 := part0_eq m c b 3 (by omega) h3 p q hr hc (fun k => ⟨1536 + k.val, by omega⟩) (fun kk => by show 1536 + kk.val = 512 * 3 + kk.val; omega)
  rw [e0, e1, e2, e3]
  exact sum_four_blocks (fun K : Fin 2048 => aX m c (ix2 ⟨512 * (b / 4) + p.val, hr⟩ K) * aF m c (ix2 K ⟨512 * (b % 4) + q.val, hc⟩))

/-- The four recurrent slices added from zero are the same entry of spikes · recurrent weights. -/
theorem dot1_unroll (c : Dev nD) (b : ℕ) (h0 : 4 * b < cfg0.N) (h1 : 4 * b + 1 < cfg0.N) (h2 : 4 * b + 2 < cfg0.N) (h3 : 4 * b + 3 < cfg0.N) (p q : Fin 512)
    (hr : 512 * (b / 4) + p.val < 4096) (hc : 512 * (b % 4) + q.val < 2048) :
    ((((0 : EReal) + part1 m c ⟨4 * b, h0⟩ p q) + part1 m c ⟨4 * b + 1, h1⟩ p q) + part1 m c ⟨4 * b + 2, h2⟩ p q) + part1 m c ⟨4 * b + 3, h3⟩ p q
      = Spec.dotAt (aZ m c) (aR m c) (ix2 ⟨512 * (b / 4) + p.val, hr⟩ ⟨512 * (b % 4) + q.val, hc⟩) := by
  have e0 : part1 m c ⟨4 * b, h0⟩ p q = _ := part1_eq m c b 0 (by omega) h0 p q hr hc (fun k => ⟨k.val, by omega⟩) (fun kk => by show kk.val = 512 * 0 + kk.val; omega)
  have e1 := part1_eq m c b 1 (by omega) h1 p q hr hc (fun k => ⟨512 + k.val, by omega⟩) (fun kk => by show 512 + kk.val = 512 * 1 + kk.val; omega)
  have e2 := part1_eq m c b 2 (by omega) h2 p q hr hc (fun k => ⟨1024 + k.val, by omega⟩) (fun kk => by show 1024 + kk.val = 512 * 2 + kk.val; omega)
  have e3 := part1_eq m c b 3 (by omega) h3 p q hr hc (fun k => ⟨1536 + k.val, by omega⟩) (fun kk => by show 1536 + kk.val = 512 * 3 + kk.val; omega)
  rw [e0, e1, e2, e3]
  exact sum_four_blocks (fun K : Fin 2048 => aZ m c (ix2 ⟨512 * (b / 4) + p.val, hr⟩ K) * aR m c (ix2 K ⟨512 * (b % 4) + q.val, hc⟩))

/-! ## The accumulators and the stored values at a last-slice point -/

/-- At a point (i, j, 3) the accumulators' entry (p, q) is entry (512 i + p, 512 j + q) of the two whole products. -/
theorem acc_at (c : Dev nD) (t : Fin cfg0.N) (h1 : t.val % 4 = 3) (p q : Fin 512)
    (hr : 512 * (t.val / 16) + p.val < 4096) (hc : 512 * (t.val / 4 % 4) + q.val < 2048) :
    (sAt m c t.val t.isLt).1 (ix2 p q) = Spec.dotAt (aX m c) (aF m c) (ix2 ⟨512 * (t.val / 16) + p.val, hr⟩ ⟨512 * (t.val / 4 % 4) + q.val, hc⟩)
    ∧ (sAt m c t.val t.isLt).2 (ix2 p q) = Spec.dotAt (aZ m c) (aR m c) (ix2 ⟨512 * (t.val / 16) + p.val, hr⟩ ⟨512 * (t.val / 4 % 4) + q.val, hc⟩) := by
  have hN : cfg0.N = 128 := N_0
  have hlt := t.isLt
  obtain ⟨b, hb⟩ : ∃ b, t.val = 4 * b + 3 := ⟨t.val / 4, by omega⟩
  have hr' : 512 * (b / 4) + p.val < 4096 := by omega
  have hc' : 512 * (b % 4) + q.val < 2048 := by omega
  have ei : (⟨512 * (t.val / 16) + p.val, hr⟩ : Fin 4096) = ⟨512 * (b / 4) + p.val, hr'⟩ :=
    Fin.ext (by show 512 * (t.val / 16) + p.val = 512 * (b / 4) + p.val; omega)
  have ej : (⟨512 * (t.val / 4 % 4) + q.val, hc⟩ : Fin 2048) = ⟨512 * (b % 4) + q.val, hc'⟩ :=
    Fin.ext (by show 512 * (t.val / 4 % 4) + q.val = 512 * (b % 4) + q.val; omega)
  have hu := acc_unroll m c b (by omega) (by omega) (by omega) (by omega) p q
  rw [sAt_congr m c hb t.isLt (by omega), ei, ej, hu.1, hu.2,
    dot0_unroll m c b (by omega) (by omega) (by omega) (by omega) p q hr' hc',
    dot1_unroll m c b (by omega) (by omega) (by omega) (by omega) p q hr' hc']
  exact ⟨rfl, rfl⟩

/-- The value stored into the next current's block is the specification's next current there. -/
theorem pay5_at (c : Dev nD) (t : Fin cfg0.N) (h1 : t.val % 4 = 3) (p q : Fin 512)
    (hr : 512 * (t.val / 16) + p.val < 4096) (hc : 512 * (t.val / 4 % 4) + q.val < 2048) :
    k0_pay5 (F := Ideal) (iblk m c 5 t) (sAt m c t.val t.isLt).1 (sAt m c t.val t.isLt).2 (ix2 p q)
      = Spec.nextI (aX m c) (aI m c) (aZ m c) (aF m c) (aR m c) (ix2 ⟨512 * (t.val / 16) + p.val, hr⟩ ⟨512 * (t.val / 4 % 4) + q.val, hc⟩) := by
  rw [Payloads.pay5_apply, (acc_at m c t h1 p q hr hc).1, (acc_at m c t h1 p q hr hc).2, iblk5_apply m c t p q hr hc]
  rfl

/-- The value stored into the next potential's block is the specification's next potential there. -/
theorem pay6_at (c : Dev nD) (t : Fin cfg0.N) (h1 : t.val % 4 = 3) (p q : Fin 512)
    (hr : 512 * (t.val / 16) + p.val < 4096) (hc : 512 * (t.val / 4 % 4) + q.val < 2048) :
    k0_pay6 (F := Ideal) (iblk m c 5 t) (sAt m c t.val t.isLt).1 (sAt m c t.val t.isLt).2 (iblk m c 4 t) (iblk m c 6 t) (ix2 p q)
      = Spec.nextV (aX m c) (aI m c) (aV m c) (aZ m c) (aF m c) (aR m c) (ix2 ⟨512 * (t.val / 16) + p.val, hr⟩ ⟨512 * (t.val / 4 % 4) + q.val, hc⟩) := by
  rw [Payloads.pay6_apply, pay5_at m c t h1 p q hr hc, iblk4_apply m c t p q hr hc, iblk6_apply m c t p q hr hc]
  rfl

/-- The value stored into the next spikes' block is the specification's next spikes there. -/
theorem pay7_at (c : Dev nD) (t : Fin cfg0.N) (h1 : t.val % 4 = 3) (p q : Fin 512)
    (hr : 512 * (t.val / 16) + p.val < 4096) (hc : 512 * (t.val / 4 % 4) + q.val < 2048) :
    k0_pay7 (F := Ideal) (iblk m c 5 t) (sAt m c t.val t.isLt).1 (sAt m c t.val t.isLt).2 (iblk m c 4 t) (iblk m c 6 t) (ix2 p q)
      = Spec.nextZ (aX m c) (aI m c) (aV m c) (aZ m c) (aF m c) (aR m c) (ix2 ⟨512 * (t.val / 16) + p.val, hr⟩ ⟨512 * (t.val / 4 % 4) + q.val, hc⟩) := by
  rw [Payloads.pay7_apply, pay6_at m c t h1 p q hr hc]
  rfl

/-! ## The result arrays -/

/-- The next spikes, the next current and the next potential of core `c`'s argument arrays, each as one array. -/
def GZ (c : Dev nD) : Buf (Elt Ideal) ((cfg0.win 7).arr.view.loc (c.tc : Thread nD τ)) := Spec.nextZ (aX m c) (aI m c) (aV m c) (aZ m c) (aF m c) (aR m c)
def GI (c : Dev nD) : Buf (Elt Ideal) ((cfg0.win 8).arr.view.loc (c.tc : Thread nD τ)) := Spec.nextI (aX m c) (aI m c) (aZ m c) (aF m c) (aR m c)
def GV (c : Dev nD) : Buf (Elt Ideal) ((cfg0.win 9).arr.view.loc (c.tc : Thread nD τ)) := Spec.nextV (aX m c) (aI m c) (aV m c) (aZ m c) (aF m c) (aR m c)

/-- What a last-slice point writes back of the next spikes' array is that array's block there. -/
theorem flushed7_eq (c : Dev nD) (t : Fin cfg0.N) (hf : (cfg0.win 7).flush t = true) :
    (dats m 0 c).flushed 7 t = ((cfg0.win 7).blk t).view.read (Elt Ideal) (GZ m c) := by
  have h1 : t.val % 4 = 3 := (flush0_7 t).mp hf
  have h0 : ¬t.val % 4 = 0 := by omega
  have hN : cfg0.N = 128 := N_0
  have hlt := t.isLt
  funext y
  obtain ⟨p, q, rfl⟩ : ∃ (p : Fin 512) (q : Fin 512), y = ix2 p q := ⟨y 0, y 1, eq_ix2 y⟩
  have hr : 512 * (t.val / 16) + p.val < 4096 := by omega
  have hc : 512 * (t.val / 4 % 4) + q.val < 2048 := by omega
  rw [View.read_apply, emb0_7 t p q hr hc]
  show (dats m 0 c).after 7 t (ix2 p q) = _
  rw [after0_7, oAt_C m c t h0 h1, oC_eq, ← sAt_C m c t h0 h1]
  exact pay7_at m c t h1 p q hr hc

/-- The next spikes' array after the run. -/
theorem final7 (c : Dev nD) : (dats m 0 c).arrAt 7 cfg0.N = GZ m c :=
  (dats m 0 c).arrAt_eq_of_cover 7 (GZ m c) (fun t hf => flushed7_eq m c t hf) (cover0_7 c)

/-- What a last-slice point writes back of the next current's array is that array's block there. -/
theorem flushed8_eq (c : Dev nD) (t : Fin cfg0.N) (hf : (cfg0.win 8).flush t = true) :
    (dats m 0 c).flushed 8 t = ((cfg0.win 8).blk t).view.read (Elt Ideal) (GI m c) := by
  have h1 : t.val % 4 = 3 := (flush0_8 t).mp hf
  have h0 : ¬t.val % 4 = 0 := by omega
  have hN : cfg0.N = 128 := N_0
  have hlt := t.isLt
  funext y
  obtain ⟨p, q, rfl⟩ : ∃ (p : Fin 512) (q : Fin 512), y = ix2 p q := ⟨y 0, y 1, eq_ix2 y⟩
  have hr : 512 * (t.val / 16) + p.val < 4096 := by omega
  have hc : 512 * (t.val / 4 % 4) + q.val < 2048 := by omega
  rw [View.read_apply, emb0_8 t p q hr hc]
  show (dats m 0 c).after 8 t (ix2 p q) = _
  rw [after0_8, oAt_C m c t h0 h1, oC_eq, ← sAt_C m c t h0 h1]
  exact pay5_at m c t h1 p q hr hc

/-- The next current's array after the run. -/
theorem final8 (c : Dev nD) : (dats m 0 c).arrAt 8 cfg0.N = GI m c :=
  (dats m 0 c).arrAt_eq_of_cover 8 (GI m c) (fun t hf => flushed8_eq m c t hf) (cover0_8 c)

/-- What a last-slice point writes back of the next potential's array is that array's block there. -/
theorem flushed9_eq (c : Dev nD) (t : Fin cfg0.N) (hf : (cfg0.win 9).flush t = true) :
    (dats m 0 c).flushed 9 t = ((cfg0.win 9).blk t).view.read (Elt Ideal) (GV m c) := by
  have h1 : t.val % 4 = 3 := (flush0_9 t).mp hf
  have h0 : ¬t.val % 4 = 0 := by omega
  have hN : cfg0.N = 128 := N_0
  have hlt := t.isLt
  funext y
  obtain ⟨p, q, rfl⟩ : ∃ (p : Fin 512) (q : Fin 512), y = ix2 p q := ⟨y 0, y 1, eq_ix2 y⟩
  have hr : 512 * (t.val / 16) + p.val < 4096 := by omega
  have hc : 512 * (t.val / 4 % 4) + q.val < 2048 := by omega
  rw [View.read_apply, emb0_9 t p q hr hc]
  show (dats m 0 c).after 9 t (ix2 p q) = _
  rw [after0_9, oAt_C m c t h0 h1, oC_eq, ← sAt_C m c t h0 h1]
  exact pay6_at m c t h1 p q hr hc

/-- The next potential's array after the run. -/
theorem final9 (c : Dev nD) : (dats m 0 c).arrAt 9 cfg0.N = GV m c :=
  (dats m 0 c).arrAt_eq_of_cover 9 (GV m c) (fun t hf => flushed9_eq m c t hf) (cover0_9 c)

/-! ## The idealized kernel's run with its results named -/

variable (ρ : Dev nD → PrngReg)

/-- Every weakly fair execution of the idealized kernel terminates with the three results at the specification's arrays and the
    six arguments unchanged. -/
theorem value_run : θ_run (defs (F := Ideal)) (onTc (τ := τ) (main (F := Ideal))) ⟨m, fun _ => 0, ρ⟩ (fun r => ∀ c : Dev nD,
      r.2.mem ((c.tc : Thread nD τ).loc main_v0_0) = GZ m c
      ∧ r.2.mem ((c.tc : Thread nD τ).loc main_v0_1) = GI m c
      ∧ r.2.mem ((c.tc : Thread nD τ).loc main_v0_2) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c 7).trans (final7 m c), (h c 8).trans (final8 m c), (h c 9).trans (final9 m c),
    kept_of_run m h c 0 rfl, kept_of_run m h c 5 rfl, kept_of_run m h c 6 rfl, kept_of_run m h c 2 rfl, kept_of_run m h c 1 rfl, kept_of_run m h c 3 rfl⟩) (run_main (F := Ideal) m ρ)

end Cert.KernelIdeal.Fr

end
-- ==== Proof.RefSide.lean ====
/-
  The reference program read as a function of its six argument arrays, index by index, on the extended reals.

  Each of its three results is the corresponding function of the specification: the two matrix products are the
  sums over the shared axis, the broadcast constants are their words, and the elementwise operations are the
  extended-real operations in the same order.
-/
import proofs.«140393_j64424509440615_1_alg».proof.Defs
import proofs.«140393_j64424509440615_1_alg».proof.Proof.Gen.ReferenceIdeal.Read
import proofs.«140393_j64424509440615_1_alg».proof.Proof.Spec
import Idealize.ShloMosaic.Lib.ValueIdx
import Idealize.ShloMosaic.PureOps.Ideal.Laws

noncomputable section

namespace Cert.Lif.RefSide

open Idealize.ShloMosaic Idealize.ShloMosaic.ValueIdx Cert.ReferenceIdeal Cert.ReferenceIdeal.Read

/-- The left operand of the first product is read at row `i 0`, column `k`. -/
theorem lidx0_eq (i : S4096x2048.Idx) (k : Fin 2048) : lidx_main_v0 i k = ix2 (i 0) k :=
  funext fun a => Fin.ext (by match a with | ⟨0, _⟩ => rfl | ⟨1, _⟩ => rfl)

/-- The right operand of the first product is read at row `k`, column `i 1`. -/
theorem ridx0_eq (i : S4096x2048.Idx) (k : Fin 2048) : ridx_main_v0 i k = ix2 k (i 1) :=
  funext fun a => Fin.ext (by match a with | ⟨0, _⟩ => rfl | ⟨1, _⟩ => rfl)

/-- The left operand of the second product is read at row `i 0`, column `k`. -/
theorem lidx1_eq (i : S4096x2048.Idx) (k : Fin 2048) : lidx_main_v1 i k = ix2 (i 0) k :=
  funext fun a => Fin.ext (by match a with | ⟨0, _⟩ => rfl | ⟨1, _⟩ => rfl)

/-- The right operand of the second product is read at row `k`, column `i 1`. -/
theorem ridx1_eq (i : S4096x2048.Idx) (k : Fin 2048) : ridx_main_v1 i k = ix2 k (i 1) :=
  funext fun a => Fin.ext (by match a with | ⟨0, _⟩ => rfl | ⟨1, _⟩ => rfl)

variable (x0 x1 x2 x3 : (⟨S4096x2048, .f32⟩ : BufTy).Contents (Elt Ideal))
variable (x4 x5 : (⟨S2048x2048, .f32⟩ : BufTy).Contents (Elt Ideal))

/-- The first matrix product, entry by entry, is the sum over the shared axis. -/
theorem ref_dot0 (i : S4096x2048.Idx) :
    val_main_v0 (F := Ideal) x0 x4 i = Cert.Lif.Spec.dotAt x0 x4 i := by
  rw [val_main_v0_apply]
  unfold Cert.Lif.Spec.dotAt
  refine Finset.sum_congr rfl fun k _ => ?_
  rw [lidx0_eq, ridx0_eq]
  rfl

/-- The second matrix product, entry by entry, is the sum over the shared axis. -/
theorem ref_dot1 (i : S4096x2048.Idx) :
    val_main_v1 (F := Ideal) x3 x5 i = Cert.Lif.Spec.dotAt x3 x5 i := by
  rw [val_main_v1_apply]
  unfold Cert.Lif.Spec.dotAt
  refine Finset.sum_congr rfl fun k _ => ?_
  rw [lidx1_eq, ridx1_eq]
  rfl

/-- The reference's next synaptic current is the specification's. -/
theorem ref_nextI :
    val_main_v7 (F := Ideal) x0 x1 x3 x4 x5 = Cert.Lif.Spec.nextI x0 x1 x3 x4 x5 := by
  funext i
  rw [val_main_v7_apply, val_main_v6_apply, val_main_v5_apply, val_main_v4_apply, val_main_cst_0_apply,
    ref_dot0, ref_dot1]
  rfl

/-- The reference's next membrane potential is the specification's. -/
theorem ref_nextV :
    val_main_v11 (F := Ideal) x0 x1 x2 x3 x4 x5 = Cert.Lif.Spec.nextV x0 x1 x2 x3 x4 x5 := by
  funext i
  rw [val_main_v11_apply, val_main_v10_apply, val_main_v9_apply, val_main_v8_apply, val_main_cst_1_apply,
    val_main_v3_apply, val_main_v2_apply, val_main_cst_apply, ref_nextI]
  rfl

/-- The reference's next spikes are the specification's. -/
theorem ref_nextZ :
    val_main_v16 (F := Ideal) x0 x1 x2 x3 x4 x5 = Cert.Lif.Spec.nextZ x0 x1 x2 x3 x4 x5 := by
  funext i
  rw [val_main_v16_apply, val_main_v15_apply, val_main_v13_apply, val_main_v12_apply, val_main_cst_2_apply,
    val_main_v14_apply, val_main_cst_3_apply, ref_nextV]
  rfl

end Cert.Lif.RefSide

end
-- ==== Proof.Bridge.lean ====
/-
  The five claims. Both the kernel and its idealization run to the end, fault nowhere and leave their six arguments unchanged
  (the same argument for the two programs, whose texts coincide: the idealization rewrote no operation, so nothing is owed for it);
  the reference, a straight line of host operations, likewise. On the extended reals the idealized kernel's three results
  and the reference's three results are the same three functions of the arguments — the next spikes, the next current and
  the next potential of the specification — so from memories that agree on the arguments they are equal, entry by entry.
  The one law behind the kernel's side is that a 2048-term sum is its four 512-term stretches added from zero in order;
  it holds in any commutative monoid, so no finiteness of the inputs is used.
-/
import proofs.«140393_j64424509440615_1_alg».proof.Defs
import proofs.«140393_j64424509440615_1_alg».proof.Proof.K.Launch
import proofs.«140393_j64424509440615_1_alg».proof.Proof.KI.Final
import proofs.«140393_j64424509440615_1_alg».proof.Proof.RefSide
import proofs.«140393_j64424509440615_1_alg».proof.Proof.Gen.ReferenceIdeal.Run
import proofs.«140393_j64424509440615_1_alg».proof.Proof.Gen.ReferenceIdeal.Read
import proofs.«140393_j64424509440615_1_alg».proof.Proof.Gen.Pre_finite_inputs

noncomputable section

namespace Cert.Proof.LifClaims

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten when the kernel was idealized. -/
theorem preserves : Cert.preserves_Kernel_KernelIdeal := trivial

/-- Both programs end with the specification's three arrays of the (agreeing) arguments. -/
theorem algebraic : Cert.algebraic_KernelIdeal_ReferenceIdeal := by
  intro m ρ m' ρ' _ hagree
  refine ⟨fun c => Cert.KernelIdeal.Fr.GZ m c, fun c => Cert.KernelIdeal.Fr.GI m c, fun c => Cert.KernelIdeal.Fr.GV m c,
    Cert.KernelIdeal.Fr.value_run m ρ, ?_⟩
  refine (θ_run Cert.ReferenceIdeal.defs _ _).mono (fun _ h c => ?_) (Cert.ReferenceIdeal.Value.run (F := Ideal) m' ρ')
  obtain ⟨h16, h7, h11, k0, k1, k2, k3, k4, k5⟩ := h c
  obtain ⟨a0, a1, a2, a3, a4, a5⟩ := hagree c
  refine ⟨?_, ?_, ?_, k0, k1, k2, k3, k4, k5⟩
  · rw [h16, Cert.ReferenceIdeal.Read.val_main_v16_eq, Cert.Lif.RefSide.ref_nextZ, a0, a1, a2, a3, a4, a5]; rfl
  · rw [h7, Cert.ReferenceIdeal.Read.val_main_v7_eq, Cert.Lif.RefSide.ref_nextI, a0, a1, a3, a4, a5]; rfl
  · rw [h11, Cert.ReferenceIdeal.Read.val_main_v11_eq, Cert.Lif.RefSide.ref_nextV, a0, a1, a2, a3, a4, a5]; rfl

end Cert.Proof.LifClaims

end
-- ==== Proof.lean ====
/- The proof of `Cert.Claim`: one step of a leaky integrate-and-fire layer, as a pipelined kernel on an 8 × 4 × 4 grid against
   its plain reference. With x the inputs, I, V, Z the current, potential and spikes, F and R the forward and recurrent
   weights, both programs compute  I' = (a · I + x F) + Z R,  V' = (b · V + I') · (1 − Z),  Z' = [V' − 1 > 0].
   The kernel accumulates each matrix product over the innermost grid axis in four 512-term slices, in a buffer it
   carries from point to point, and writes a result block back once, at the last slice.
   Proof/Spec.lean states the three functions; Proof/KI (the idealized kernel) and Proof/K (the kernel as printed, the same text
   at the other program) prove the run: the body at each of its three kinds of point, what the carried buffers hold point by
   point, the body's obligation, the launch with the spikes' array shared between two windows; Proof/KI/Final.lean reads the
   result arrays in closed form; Proof/RefSide.lean reads the reference; Proof/Bridge.lean states the five claims. -/
import proofs.«140393_j64424509440615_1_alg».proof.Defs
import proofs.«140393_j64424509440615_1_alg».proof.Proof.Bridge
import proofs.«140393_j64424509440615_1_alg».proof.Proof.Gen.Kernel
import proofs.«140393_j64424509440615_1_alg».proof.Proof.Gen.Kernel.Skeleton
import proofs.«140393_j64424509440615_1_alg».proof.Proof.Gen.Kernel.Launch
import proofs.«140393_j64424509440615_1_alg».proof.Proof.Gen.Kernel.Points
import proofs.«140393_j64424509440615_1_alg».proof.Proof.Gen.KernelIdeal
import proofs.«140393_j64424509440615_1_alg».proof.Proof.Gen.KernelIdeal.Skeleton
import proofs.«140393_j64424509440615_1_alg».proof.Proof.Gen.KernelIdeal.Launch
import proofs.«140393_j64424509440615_1_alg».proof.Proof.Gen.KernelIdeal.Points
import proofs.«140393_j64424509440615_1_alg».proof.Proof.Gen.ReferenceIdeal
import proofs.«140393_j64424509440615_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LifClaims.frame_k, LifClaims.frame_ki, LifClaims.frame_ri, LifClaims.preserves, LifClaims.algebraic⟩

end Cert.Proof

end
